-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S250000x3 : S_.BroadcastsInDim S250000x3 (![] : Fin 0 → Fin S250000x3.rank)
  reducesTo_S250000x3_S_d0_1 : S250000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S250000x3 .f32) (main_arg1 : IVec S2x4000000 32) (main_arg2 : FVec F S3x16 .f32) (main_arg3 : FVec F S16 .f32) (main_arg4 : FVec F S16x7 .f32) (main_arg5 : FVec F S7 .f32) : IVec S_ 1 :=
  let main_v0 : FVec F S250000x3 .f32 := Host.absf main_arg0
  let main_cst : FVec F S_ .f32 := constant S_ .f32 0x7F800000#32
  let main_v1 : FVec F S250000x3 .f32 := broadcastInDim S250000x3 ![] bcast_S_S250000x3 main_cst
  let main_v2 : IVec S250000x3 1 := cmpf .olt main_v0 main_v1
  let main_c : IVec S_ 1 := constantI S_ 1 1#1
  let main_v3 : IVec S_ 1 := (fun x v => Host.reduce IntOp.andi x v reducesTo_S250000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S250000 : Shape := ⟨1, ![250000]⟩
abbrev S1x4000000 : Shape := ⟨2, ![1, 4000000]⟩
abbrev S4000000 : Shape := ⟨1, ![4000000]⟩
abbrev S4250000 : Shape := ⟨1, ![4250000]⟩
abbrev S_ : Shape := ⟨0, ![]⟩
abbrev S4250000x1 : Shape := ⟨2, ![4250000, 1]⟩
abbrev S250000x1 : Shape := ⟨2, ![250000, 1]⟩
abbrev S10000x3 : Shape := ⟨2, ![10000, 3]⟩
abbrev S10000x1 : Shape := ⟨2, ![10000, 1]⟩
abbrev S4250000x3 : Shape := ⟨2, ![4250000, 3]⟩
abbrev S1x16 : Shape := ⟨2, ![1, 16]⟩
abbrev S250000x16 : Shape := ⟨2, ![250000, 16]⟩
abbrev S10000x16 : Shape := ⟨2, ![10000, 16]⟩
abbrev S250000x7 : Shape := ⟨2, ![250000, 7]⟩
abbrev S10000x7 : Shape := ⟨2, ![10000, 7]⟩
abbrev S4250000x7 : Shape := ⟨2, ![4250000, 7]⟩
abbrev S1x7 : Shape := ⟨2, ![1, 7]⟩

abbrev nBuf : Space → Nat
  | .hbm => 59
  | .vmem => 28
  | .smem => 0
  | _ => 0

abbrev bufTy : (tb : Table) → Fin (tcTables nBuf tb) → BufTy
  | .hbm, ⟨0, _⟩ => ⟨S250000x3, .f32⟩
  | .hbm, ⟨1, _⟩ => ⟨S2x4000000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S250000, .i32⟩
  | .hbm, ⟨7, _⟩ => ⟨S1x4000000, .i32⟩
  | .hbm, ⟨8, _⟩ => ⟨S4000000, .i32⟩
  | .hbm, ⟨9, _⟩ => ⟨S4250000, .i32⟩
  | .hbm, ⟨10, _⟩ => ⟨S1x4000000, .i32⟩
  | .hbm, ⟨11, _⟩ => ⟨S4000000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S250000, .f32⟩
  | .hbm, ⟨25, _⟩ => ⟨S250000, .f32⟩
  | .hbm, ⟨26, _⟩ => ⟨S250000x1, .f32⟩
  | .hbm, ⟨27, _⟩ => ⟨S250000x3, .f32⟩
  | .hbm, ⟨28, _⟩ => ⟨S_, .i32⟩
  | .hbm, ⟨29, _⟩ => ⟨S4250000, .i32⟩
  | .hbm, ⟨30, _⟩ => ⟨S4250000, .i1⟩
  | .hbm, ⟨31, _⟩ => ⟨S_, .i32⟩
  | .hbm, ⟨32, _⟩ => ⟨S4250000, .i32⟩
  | .hbm, ⟨33, _⟩ => ⟨S4250000, .i32⟩
  | .hbm, ⟨34, _⟩ => ⟨S4250000, .i32⟩
  | .hbm, ⟨35, _⟩ => ⟨S4250000x1, .i32⟩
  | .hbm, ⟨36, _⟩ => ⟨S4250000x3, .f32⟩
  | .hbm, ⟨37, _⟩ => ⟨S_, .f32⟩
  | .hbm, ⟨38, _⟩ => ⟨S250000x3, .f32⟩
  | .hbm, ⟨39, _⟩ => ⟨S4250000x1, .i32⟩
  | .hbm, ⟨40, _⟩ => ⟨S250000x3, .f32⟩
  | .hbm, ⟨41, _⟩ => ⟨S1x16, .f32⟩
  | .hbm, ⟨42, _⟩ => ⟨S250000x16, .f32⟩
  | .hbm, ⟨43, _⟩ => ⟨S250000x7, .f32⟩
  | .hbm, ⟨44, _⟩ => ⟨S_, .i32⟩
  | .hbm, ⟨45, _⟩ => ⟨S4250000, .i32⟩
  | .hbm, ⟨46, _⟩ => ⟨S4250000, .i1⟩
  | .hbm, ⟨47, _⟩ => ⟨S_, .i32⟩
  | .hbm, ⟨48, _⟩ => ⟨S4250000, .i32⟩
  | .hbm, ⟨49, _⟩ => ⟨S4250000, .i32⟩
  | .hbm, ⟨50, _⟩ => ⟨S4250000, .i32⟩
  | .hbm, ⟨51, _⟩ => ⟨S4250000x1, .i32⟩
  | .hbm, ⟨52, _⟩ => ⟨S4250000x7, .f32⟩
  | .hbm, ⟨53, _⟩ => ⟨S_, .f32⟩
  | .hbm, ⟨54, _⟩ => ⟨S250000x7, .f32⟩
  | .hbm, ⟨55, _⟩ => ⟨S4250000x1, .i32⟩
  | .hbm, ⟨56, _⟩ => ⟨S250000x7, .f32⟩
  | .hbm, ⟨57, _⟩ => ⟨S1x7, .f32⟩
  | .hbm, ⟨58, _⟩ => ⟨S250000x7, .f32⟩
  | .local _ .vmem, ⟨0, _⟩ => ⟨S10000x3, .f32⟩
  | .local _ .vmem, ⟨1, _⟩ => ⟨S10000x3, .f32⟩
  | .local _ .vmem, ⟨2, _⟩ => ⟨S10000x1, .f32⟩
  | .local _ .vmem, ⟨3, _⟩ => ⟨S10000x1, .f32⟩
  | .local _ .vmem, ⟨4, _⟩ => ⟨S10000x3, .f32⟩
  | .local _ .vmem, ⟨5, _⟩ => ⟨S10000x3, .f32⟩
  | .local _ .vmem, ⟨6, _⟩ => ⟨S10000x3, .f32⟩
  | .local _ .vmem, ⟨7, _⟩ => ⟨S10000x3, .f32⟩
  | .local _ .vmem, ⟨8, _⟩ => ⟨S10000x1, .f32⟩
  | .local _ .vmem, ⟨9, _⟩ => ⟨S10000x1, .f32⟩
  | .local _ .vmem, ⟨10, _⟩ => ⟨S3x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x1, .f32⟩
  | .local _ .vmem, ⟨17, _⟩ => ⟨S10000x1, .f32⟩
  | .local _ .vmem, ⟨18, _⟩ => ⟨S16x7, .f32⟩
  | .local _ .vmem, ⟨19, _⟩ => ⟨S10000x7, .f32⟩
  | .local _ .vmem, ⟨20, _⟩ => ⟨S10000x7, .f32⟩
  | .local _ .vmem, ⟨21, _⟩ => ⟨S10000x7, .f32⟩
  | .local _ .vmem, ⟨22, _⟩ => ⟨S10000x7, .f32⟩
  | .local _ .vmem, ⟨23, _⟩ => ⟨S10000x1, .f32⟩
  | .local _ .vmem, ⟨24, _⟩ => ⟨S10000x1, .f32⟩
  | .local _ .vmem, ⟨25, _⟩ => ⟨S1x7, .f32⟩
  | .local _ .vmem, ⟨26, _⟩ => ⟨S10000x7, .f32⟩
  | .local _ .vmem, ⟨27, _⟩ => ⟨S10000x7, .f32⟩
  | _, _ => ⟨S250000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x4000000_S1x4000000_0_0 : S2x4000000.Slices ![0, 0] S1x4000000
  shapeCasts_S1x4000000_S4000000 : S1x4000000.ShapeCasts S4000000
  concatenates_S4000000_S250000_S4250000_d0 : Shape.Concatenates [S4000000, S250000] S4250000 0
  slices_S2x4000000_S1x4000000_1_0 : S2x4000000.Slices ![1, 0] S1x4000000
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  bcast_S250000_S250000x1_0 : S250000.BroadcastsInDim S250000x1 (![0] : Fin 1 → Fin S250000x1.rank)
  inb_S10000x3_S10000x3_0_0 : ∀ a, (![0, 0] : Fin 2 → Nat) a + S10000x3.size a ≤ S10000x3.size a
  h_S10000x3 : 0 < S10000x3.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x3 : S10000x1.Broadcasts S10000x3
  bcast_S_S250000x3 : S_.BroadcastsInDim S250000x3 (![] : Fin 0 → Fin S250000x3.rank)
  shapeCasts_S16_S1x16 : S16.ShapeCasts S1x16
  shapeCasts_S10000x3_S10000x3 : S10000x3.ShapeCasts S10000x3
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  broadcasts_S10000x1_S10000x7 : S10000x1.Broadcasts S10000x7
  inb_S10000x7_S10000x7_0_0 : ∀ a, (![0, 0] : Fin 2 → Nat) a + S10000x7.size a ≤ S10000x7.size a
  h_S10000x7 : 0 < S10000x7.numel
  bcast_S_S250000x7 : S_.BroadcastsInDim S250000x7 (![] : Fin 0 → Fin S250000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  scatter_S250000_S4250000x1_S4250000_n_0_0_1_wf : ScatterDims.WF S250000 S4250000x1 S4250000 [] [0] [0] 1
  gather_S250000x3_S4250000x1_S4250000x3_1_0_n_n_0_1_13_wf : GatherDims.WF S250000x3 S4250000x1 S4250000x3 [1] [0] [] [0] [] 1 ![1, 3]
  scatter_S250000x3_S4250000x1_S4250000x3_1_0_0_1_wf : ScatterDims.WF S250000x3 S4250000x1 S4250000x3 [1] [0] [0] 1
  dot_S10000x3_S3x16_S10000x16_1_0_0_1_n_n_wf : DotDims.WF S10000x3 S3x16 S10000x16 [1] [0] [0] [1] [] []
  dot_S10000x16_S16x7_S10000x7_1_0_0_1_n_n_wf : DotDims.WF S10000x16 S16x7 S10000x7 [1] [0] [0] [1] [] []
  gather_S250000x7_S4250000x1_S4250000x7_1_0_n_n_0_1_17_wf : GatherDims.WF S250000x7 S4250000x1 S4250000x7 [1] [0] [] [0] [] 1 ![1, 7]
  scatter_S250000x7_S4250000x1_S4250000x7_1_0_0_1_wf : ScatterDims.WF S250000x7 S4250000x1 S4250000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S250000x3.size a
  hwx0_0 : ∀ i : grid0.Coords, EltTy.bits .f32 = 32 ∨ (Rect.block (s := S250000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S250000x1.size a
  hwx0_1 : ∀ i : grid0.Coords, EltTy.bits .f32 = 32 ∨ (Rect.block (s := S250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x3.size a ≤ S250000x3.size a
  hwx0_2 : ∀ i : grid0.Coords, EltTy.bits .f32 = 32 ∨ (Rect.block (s := S250000x3) S10000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x3.size a ≤ S250000x3.size a
  hwx1_0 : ∀ i : grid1.Coords, EltTy.bits .f32 = 32 ∨ (Rect.block (s := S250000x3) S10000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S250000x1.size a
  hwx1_1 : ∀ i : grid1.Coords, EltTy.bits .f32 = 32 ∨ (Rect.block (s := S250000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x16.size a ≤ S3x16.size a
  hwx1_2 : ∀ i : grid1.Coords, EltTy.bits .f32 = 32 ∨ (Rect.block (s := S3x16) S3x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S250000x16.size a
  hwx1_4 : ∀ i : grid1.Coords, EltTy.bits .f32 = 32 ∨ (Rect.block (s := S250000x16) S10000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S250000x16.size a
  hwx2_0 : ∀ i : grid2.Coords, EltTy.bits .f32 = 32 ∨ (Rect.block (s := S250000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S250000x1.size a
  hwx2_1 : ∀ i : grid2.Coords, EltTy.bits .f32 = 32 ∨ (Rect.block (s := S250000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x7.size a ≤ S16x7.size a
  hwx2_2 : ∀ i : grid2.Coords, EltTy.bits .f32 = 32 ∨ (Rect.block (s := S16x7) S16x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x7.size a ≤ S250000x7.size a
  hwx2_3 : ∀ i : grid2.Coords, EltTy.bits .f32 = 32 ∨ (Rect.block (s := S250000x7) S10000x7.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S250000x7.size a
  hwx3_0 : ∀ i : grid3.Coords, EltTy.bits .f32 = 32 ∨ (Rect.block (s := S250000x7) S10000x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S250000x1.size a
  hwx3_1 : ∀ i : grid3.Coords, EltTy.bits .f32 = 32 ∨ (Rect.block (s := S250000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x7.size a ≤ S250000x7.size a
  hwx3_3 : ∀ i : grid3.Coords, EltTy.bits .f32 = 32 ∨ (Rect.block (s := S250000x7) S10000x7.size (cc3_transform_3 i) (hinb3_3 i)).WholeWords (EltTy.packing .f32)

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000x3_S4250000x1_S4250000x3_1_0_n_n_0_1_13 : GatherDims S250000x3 S4250000x1 S4250000x3 where
  offsetDims := [1]
  collapsedSliceDims := [0]
  operandBatchingDims := []
  startIndicesBatchingDims := []
  startIndexMap := [0]
  indexVectorDim := 1
  sliceSizes := ![1, 3]
  wf := gather_S250000x3_S4250000x1_S4250000x3_1_0_n_n_0_1_13_wf
def scatter_S250000x3_S4250000x1_S4250000x3_1_0_0_1 : ScatterDims S250000x3 S4250000x1 S4250000x3 where
  updateWindowDims := [1]
  insertedWindowDims := [0]
  scatterDimsToOperandDims := [0]
  indexVectorDim := 1
  wf := scatter_S250000x3_S4250000x1_S4250000x3_1_0_0_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S250000x7_S4250000x1_S4250000x7_1_0_n_n_0_1_17 : GatherDims S250000x7 S4250000x1 S4250000x7 where
  offsetDims := [1]
  collapsedSliceDims := [0]
  operandBatchingDims := []
  startIndicesBatchingDims := []
  startIndexMap := [0]
  indexVectorDim := 1
  sliceSizes := ![1, 7]
  wf := gather_S250000x7_S4250000x1_S4250000x7_1_0_n_n_0_1_17_wf
def scatter_S250000x7_S4250000x1_S4250000x7_1_0_0_1 : ScatterDims S250000x7 S4250000x1 S4250000x7 where
  updateWindowDims := [1]
  insertedWindowDims := [0]
  scatterDimsToOperandDims := [0]
  indexVectorDim := 1
  wf := scatter_S250000x7_S4250000x1_S4250000x7_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S10000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S10000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S250000 : Shape := ⟨1, ![250000]⟩
abbrev S1x4000000 : Shape := ⟨2, ![1, 4000000]⟩
abbrev S4000000 : Shape := ⟨1, ![4000000]⟩
abbrev S4250000 : Shape := ⟨1, ![4250000]⟩
abbrev S_ : Shape := ⟨0, ![]⟩
abbrev S4250000x1 : Shape := ⟨2, ![4250000, 1]⟩
abbrev S250000x16 : Shape := ⟨2, ![250000, 16]⟩
abbrev S4250000x16 : Shape := ⟨2, ![4250000, 16]⟩
abbrev S1x16 : Shape := ⟨2, ![1, 16]⟩
abbrev S250000x7 : Shape := ⟨2, ![250000, 7]⟩
abbrev S4250000x7 : Shape := ⟨2, ![4250000, 7]⟩
abbrev S1x7 : Shape := ⟨2, ![1, 7]⟩

abbrev nBuf : Space → Nat
  | .hbm => 88
  | .vmem => 0
  | .smem => 0
  | _ => 0

abbrev bufTy : (tb : Table) → Fin (tcTables nBuf tb) → BufTy
  | .hbm, ⟨0, _⟩ => ⟨S250000x3, .f32⟩
  | .hbm, ⟨1, _⟩ => ⟨S2x4000000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S250000, .i32⟩
  | .hbm, ⟨7, _⟩ => ⟨S1x4000000, .i32⟩
  | .hbm, ⟨8, _⟩ => ⟨S4000000, .i32⟩
  | .hbm, ⟨9, _⟩ => ⟨S4250000, .i32⟩
  | .hbm, ⟨10, _⟩ => ⟨S1x4000000, .i32⟩
  | .hbm, ⟨11, _⟩ => ⟨S4000000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S250000, .f32⟩
  | .hbm, ⟨25, _⟩ => ⟨S250000, .f32⟩
  | .hbm, ⟨26, _⟩ => ⟨S_, .i32⟩
  | .hbm, ⟨27, _⟩ => ⟨S4250000, .i32⟩
  | .hbm, ⟨28, _⟩ => ⟨S4250000, .i1⟩
  | .hbm, ⟨29, _⟩ => ⟨S_, .i32⟩
  | .hbm, ⟨30, _⟩ => ⟨S4250000, .i32⟩
  | .hbm, ⟨31, _⟩ => ⟨S4250000, .i32⟩
  | .hbm, ⟨32, _⟩ => ⟨S4250000, .i32⟩
  | .hbm, ⟨33, _⟩ => ⟨S4250000x1, .i32⟩
  | .hbm, ⟨34, _⟩ => ⟨S4250000, .f32⟩
  | .hbm, ⟨35, _⟩ => ⟨S_, .i32⟩
  | .hbm, ⟨36, _⟩ => ⟨S4250000, .i32⟩
  | .hbm, ⟨37, _⟩ => ⟨S4250000, .i1⟩
  | .hbm, ⟨38, _⟩ => ⟨S_, .i32⟩
  | .hbm, ⟨39, _⟩ => ⟨S4250000, .i32⟩
  | .hbm, ⟨40, _⟩ => ⟨S4250000, .i32⟩
  | .hbm, ⟨41, _⟩ => ⟨S4250000, .i32⟩
  | .hbm, ⟨42, _⟩ => ⟨S4250000x1, .i32⟩
  | .hbm, ⟨43, _⟩ => ⟨S4250000, .f32⟩
  | .hbm, ⟨44, _⟩ => ⟨S4250000, .f32⟩
  | .hbm, ⟨45, _⟩ => ⟨S250000x16, .f32⟩
  | .hbm, ⟨46, _⟩ => ⟨S4250000x1, .f32⟩
  | .hbm, ⟨47, _⟩ => ⟨S_, .i32⟩
  | .hbm, ⟨48, _⟩ => ⟨S4250000, .i32⟩
  | .hbm, ⟨49, _⟩ => ⟨S4250000, .i1⟩
  | .hbm, ⟨50, _⟩ => ⟨S_, .i32⟩
  | .hbm, ⟨51, _⟩ => ⟨S4250000, .i32⟩
  | .hbm, ⟨52, _⟩ => ⟨S4250000, .i32⟩
  | .hbm, ⟨53, _⟩ => ⟨S4250000, .i32⟩
  | .hbm, ⟨54, _⟩ => ⟨S4250000x1, .i32⟩
  | .hbm, ⟨55, _⟩ => ⟨S4250000x16, .f32⟩
  | .hbm, ⟨56, _⟩ => ⟨S4250000x16, .f32⟩
  | .hbm, ⟨57, _⟩ => ⟨S4250000x16, .f32⟩
  | .hbm, ⟨58, _⟩ => ⟨S_, .f32⟩
  | .hbm, ⟨59, _⟩ => ⟨S250000x16, .f32⟩
  | .hbm, ⟨60, _⟩ => ⟨S4250000x1, .i32⟩
  | .hbm, ⟨61, _⟩ => ⟨S250000x16, .f32⟩
  | .hbm, ⟨62, _⟩ => ⟨S1x16, .f32⟩
  | .hbm, ⟨63, _⟩ => ⟨S250000x16, .f32⟩
  | .hbm, ⟨64, _⟩ => ⟨S250000x16, .f32⟩
  | .hbm, ⟨65, _⟩ => ⟨S_, .f32⟩
  | .hbm, ⟨66, _⟩ => ⟨S250000x16, .f32⟩
  | .hbm, ⟨67, _⟩ => ⟨S250000x16, .f32⟩
  | .hbm, ⟨68, _⟩ => ⟨S250000x7, .f32⟩
  | .hbm, ⟨69, _⟩ => ⟨S4250000x1, .f32⟩
  | .hbm, ⟨70, _⟩ => ⟨S_, .i32⟩
  | .hbm, ⟨71, _⟩ => ⟨S4250000, .i32⟩
  | .hbm, ⟨72, _⟩ => ⟨S4250000, .i1⟩
  | .hbm, ⟨73, _⟩ => ⟨S_, .i32⟩
  | .hbm, ⟨74, _⟩ => ⟨S4250000, .i32⟩
  | .hbm, ⟨75, _⟩ => ⟨S4250000, .i32⟩
  | .hbm, ⟨76, _⟩ => ⟨S4250000, .i32⟩
  | .hbm, ⟨77, _⟩ => ⟨S4250000x1, .i32⟩
  | .hbm, ⟨78, _⟩ => ⟨S4250000x7, .f32⟩
  | .hbm, ⟨79, _⟩ => ⟨S4250000x7, .f32⟩
  | .hbm, ⟨80, _⟩ => ⟨S4250000x7, .f32⟩
  | .hbm, ⟨81, _⟩ => ⟨S_, .f32⟩
  | .hbm, ⟨82, _⟩ => ⟨S250000x7, .f32⟩
  | .hbm, ⟨83, _⟩ => ⟨S4250000x1, .i32⟩
  | .hbm, ⟨84, _⟩ => ⟨S250000x7, .f32⟩
  | .hbm, ⟨85, _⟩ => ⟨S1x7, .f32⟩
  | .hbm, ⟨86, _⟩ => ⟨S250000x7, .f32⟩
  | .hbm, ⟨87, _⟩ => ⟨S250000x7, .f32⟩
  | _, _ => ⟨S250000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S250000_S4250000_d0 : Shape.Concatenates [S4000000, S250000] S4250000 0
  slices_S2x4000000_S1x4000000_1_0 : S2x4000000.Slices ![1, 0] S1x4000000
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  bcast_S4250000x1_S4250000x16_0_1 : S4250000x1.BroadcastsInDim S4250000x16 (![0, 1] : Fin 2 → Fin S4250000x16.rank)
  bcast_S_S250000x16 : S_.BroadcastsInDim S250000x16 (![] : Fin 0 → Fin S250000x16.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S4250000x1_S4250000x7_0_1 : S4250000x1.BroadcastsInDim S4250000x7 (![0, 1] : Fin 2 → Fin S4250000x7.rank)
  bcast_S_S250000x7 : S_.BroadcastsInDim S250000x7 (![] : Fin 0 → Fin S250000x7.rank)
  bcast_S7_S1x7_1 : S7.BroadcastsInDim S1x7 (![1] : Fin 1 → Fin S1x7.rank)
  bcast_S1x7_S250000x7_0_1 : S1x7.BroadcastsInDim S250000x7 (![0, 1] : Fin 2 → Fin S250000x7.rank)
  scatter_S250000_S4250000x1_S4250000_n_0_0_1_wf : ScatterDims.WF S250000 S4250000x1 S4250000 [] [0] [0] 1
  gather_S250000_S4250000x1_S4250000_n_0_n_n_0_1_1_wf : GatherDims.WF S250000 S4250000x1 S4250000 [] [0] [] [0] [] 1 ![1]
  dot_S250000x3_S3x16_S250000x16_1_0_0_1_n_n_wf : DotDims.WF S250000x3 S3x16 S250000x16 [1] [0] [0] [1] [] []
  gather_S250000x16_S4250000x1_S4250000x16_1_0_n_n_0_1_116_wf : GatherDims.WF S250000x16 S4250000x1 S4250000x16 [1] [0] [] [0] [] 1 ![1, 16]
  scatter_S250000x16_S4250000x1_S4250000x16_1_0_0_1_wf : ScatterDims.WF S250000x16 S4250000x1 S4250000x16 [1] [0] [0] 1
  dot_S250000x16_S16x7_S250000x7_1_0_0_1_n_n_wf : DotDims.WF S250000x16 S16x7 S250000x7 [1] [0] [0] [1] [] []
  gather_S250000x7_S4250000x1_S4250000x7_1_0_n_n_0_1_17_wf : GatherDims.WF S250000x7 S4250000x1 S4250000x7 [1] [0] [] [0] [] 1 ![1, 7]
  scatter_S250000x7_S4250000x1_S4250000x7_1_0_0_1_wf : ScatterDims.WF S250000x7 S4250000x1 S4250000x7 [1] [0] [0] 1

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000_S4250000x1_S4250000_n_0_n_n_0_1_1 : GatherDims S250000 S4250000x1 S4250000 where
  offsetDims := []
  collapsedSliceDims := [0]
  operandBatchingDims := []
  startIndicesBatchingDims := []
  startIndexMap := [0]
  indexVectorDim := 1
  sliceSizes := ![1]
  wf := gather_S250000_S4250000x1_S4250000_n_0_n_n_0_1_1_wf
def dot_S250000x3_S3x16_S250000x16_1_0_0_1_n_n : DotDims S250000x3 S3x16 S250000x16 where
  lhsContracting := [1]
  rhsContracting := [0]
  lhsNonContracting := [0]
  rhsNonContracting := [1]
  lhsBatch := []
  rhsBatch := []
  wf := dot_S250000x3_S3x16_S250000x16_1_0_0_1_n_n_wf
def gather_S250000x16_S4250000x1_S4250000x16_1_0_n_n_0_1_116 : GatherDims S250000x16 S4250000x1 S4250000x16 where
  offsetDims := [1]
  collapsedSliceDims := [0]
  operandBatchingDims := []
  startIndicesBatchingDims := []
  startIndexMap := [0]
  indexVectorDim := 1
  sliceSizes := ![1, 16]
  wf := gather_S250000x16_S4250000x1_S4250000x16_1_0_n_n_0_1_116_wf
def scatter_S250000x16_S4250000x1_S4250000x16_1_0_0_1 : ScatterDims S250000x16 S4250000x1 S4250000x16 where
  updateWindowDims := [1]
  insertedWindowDims := [0]
  scatterDimsToOperandDims := [0]
  indexVectorDim := 1
  wf := scatter_S250000x16_S4250000x1_S4250000x16_1_0_0_1_wf
def dot_S250000x16_S16x7_S250000x7_1_0_0_1_n_n : DotDims S250000x16 S16x7 S250000x7 where
  lhsContracting := [1]
  rhsContracting := [0]
  lhsNonContracting := [0]
  rhsNonContracting := [1]
  lhsBatch := []
  rhsBatch := []
  wf := dot_S250000x16_S16x7_S250000x7_1_0_0_1_n_n_wf
def gather_S250000x7_S4250000x1_S4250000x7_1_0_n_n_0_1_17 : GatherDims S250000x7 S4250000x1 S4250000x7 where
  offsetDims := [1]
  collapsedSliceDims := [0]
  operandBatchingDims := []
  startIndicesBatchingDims := []
  startIndexMap := [0]
  indexVectorDim := 1
  sliceSizes := ![1, 7]
  wf := gather_S250000x7_S4250000x1_S4250000x7_1_0_n_n_0_1_17_wf
def scatter_S250000x7_S4250000x1_S4250000x7_1_0_0_1 : ScatterDims S250000x7 S4250000x1 S4250000x7 where
  updateWindowDims := [1]
  insertedWindowDims := [0]
  scatterDimsToOperandDims := [0]
  indexVectorDim := 1
  wf := scatter_S250000x7_S4250000x1_S4250000x7_1_0_0_1_wf

class Facts : Prop extends Facts₀ where

variable [Facts]
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.LibScatterVec.lean ====
/-
  THE ACCUMULATING SCATTER INTO A VECTOR READ AT AN INDEX, at the ideal instance (floats are extended reals).

  A scatter into a vector adds element `e` of an `[E]` array of updates into element `idx[e, 0]` of an `[N]` operand:
  `"stablehlo.scatter"` with an `add` body and dimension numbers update_window_dims = [], inserted_window_dims = [0],
  scatter_dims_to_operand_dims = [0], index_vector_dim = 1, over scatter indices of shape `[E, 1]` (what a segment sum
  of a vector lowers to; with updates all one it counts, per segment, the indices that name it). The scatter index is
  read SIGNED and is NOT clamped: an update whose index is outside `[0, N)` is dropped. At the ideal instance element
  `n` of the result is

      x[n] + ∑ e : Fin E, if idx[e, 0] = n then upd[e] else 0

  (`scatterAdd_vec_apply`) — the landing condition is the one of a row scatter through the same indices.
-/
import Idealize.ShloMosaic.PureOps.Ideal
import Idealize.ShloMosaic.PureOps.Contract
import Idealize.ShloMosaic.Lib.ValueIdx

noncomputable section

open scoped BigOperators

namespace Idealize.ShloMosaic.ScatterVec

open Idealize.ShloMosaic Idealize.ShloMosaic.ValueIdx

/-- The dimension numbers of a scatter of `[E]` updates into an `[N]` operand through `[E, 1]` scatter indices. -/
abbrev vecDims (N E : Nat)
    (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat}
  (wf : ScatterDims.WF (⟨1, ![N]⟩ : Shape) ⟨2, ![E, 1]⟩ ⟨1, ![E]⟩ [] [0] [0] 1)

/-- The window starts at the update's scatter index, read signed. -/
theorem start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The window coordinate is `0`: the operand's one axis is inserted. -/
theorem window_zero (j : (⟨1, ![E]⟩ : Shape).Idx) :
    (vecDims N E wf).window j 0 = 0 := by
  unfold ScatterDims.window
  have h : ¬ (0 : Fin 1) ∈ (List.finRange 1).filter (fun a => a ∉ ([0] : List (Fin 1))) := by decide
  rw [dif_neg (show ¬ (0 : Fin 1) ∈ (vecDims N E wf).sKept from h)]

/-- An update lands at operand element `n` exactly when its scatter index, read signed, is `n`. -/
theorem resultIdx?_eq_some_iff (j : (⟨1, ![E]⟩ : Shape).Idx) (idx : IVec ⟨2, ![E, 1]⟩ w) (n : Fin N) :
    (vecDims N E wf).resultIdx? j idx = some (ix1 n) ↔ (idx (ix2 (j 0) (0 : Fin 1))).toInt = (n.val : Int) := by
  have hs0 := start_zero wf j idx
  have hw0 := window_zero wf j
  have hn : n.val < N := n.isLt
  unfold ScatterDims.resultIdx?
  split_ifs with h
  · rw [Option.some.injEq]
    constructor
    · intro hf
      have h0 := congrArg (fun f => (f 0).val) hf
      have b0 := (h 0).1
      simp only [hs0, hw0] at h0 b0
      change ((idx (ix2 (j 0) (0 : Fin 1))).toInt + ((0 : Nat) : Int)).toNat = n.val at h0
      omega
    · intro ht
      funext a
      refine Fin.ext ?_
      match a with
      | ⟨0, _⟩ =>
        show ((vecDims N E wf).start j idx 0 + ((vecDims N E wf).window j 0 : Int)).toNat = n.val
        rw [hs0, hw0, ht]; omega
  · constructor
    · intro hf; exact absurd hf (by simp)
    · intro ht
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, hw0, ht]; omega

end

/-- THE SCATTER INTO A VECTOR READ AT `n`, at the ideal instance: the operand's element plus the sum, over ALL `E`
    updates, of the update when its scatter index (read signed) is `n`, and `0` when it is not. -/
theorem scatterAdd_vec_apply {N E w : Nat}
    (wf : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32)
        (⟨[], [0], [0], 1, wf⟩ : ScatterDims ⟨1, ![N]⟩ ⟨2, ![E, 1]⟩ ⟨1, ![E]⟩) x idx upd (ix1 n)
      = x (ix1 n) + ∑ e : Fin E,
          if (idx (ix2 e (0 : Fin 1))).toInt = (n.val : Int) then upd (ix1 e) else 0 := by
  show Ideal.hostScatterAdd (vecDims N E wf) x idx upd (ix1 n) = _
  unfold Ideal.hostScatterAdd
  congr 1
  rw [Finset.sum_filter]
  have hre : ∀ f : (⟨1, ![E]⟩ : Shape).Idx → EReal, ∑ j, f j = ∑ e : Fin E, f (ix1 e) := fun f =>
    (Equiv.sum_comp (⟨fun e : Fin E => (ix1 e : (⟨1, ![E]⟩ : Shape).Idx), fun j => j 0,
      fun e => rfl, fun j => (eq_ix1 j).symm⟩ : Fin E ≃ (⟨1, ![E]⟩ : Shape).Idx) f).symm
  rw [hre]
  refine Finset.sum_congr rfl fun e _ => ?_
  exact if_congr (resultIdx?_eq_some_iff wf (ix1 e) idx n) rfl rfl

/-- The same for ANY dimension numbers between these shapes whose four lists are this scatter's. -/
theorem scatterAdd_vec_apply' {N E w : Nat}
    (d : ScatterDims (⟨1, ![N]⟩ : Shape) ⟨2, ![E, 1]⟩ ⟨1, ![E]⟩)
    (h1 : d.updateWindowDims = []) (h2 : d.insertedWindowDims = [0])
    (h3 : d.scatterDimsToOperandDims = [0]) (h4 : d.indexVectorDim = 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) d x idx upd (ix1 n)
      = x (ix1 n) + ∑ e : Fin E,
          if (idx (ix2 e (0 : Fin 1))).toInt = (n.val : Int) then upd (ix1 e) else 0 := by
  obtain ⟨uw, iw, sd, iv, wf⟩ := d
  simp only at h1 h2 h3 h4
  subst h1 h2 h3 h4
  exact scatterAdd_vec_apply wf x idx upd n

end Idealize.ShloMosaic.ScatterVec

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.LibGatherVec.lean ====
/-
  THE VECTOR GATHER READ AT AN INDEX.

  A vector gather takes, for each of `E` start indices, one element of an `[N]` operand: `"stablehlo.gather"` with
  offset_dims = [], collapsed_slice_dims = [0], start_index_map = [0], index_vector_dim = 1 and slice sizes [1], over
  start indices of shape `[E, 1]` (what indexing a vector by an integer vector lowers to). Element `e` of the result
  is the operand at `idx[e, 0]` — read SIGNED and CLAMPED into `[0, N − 1]` (`gather_vec_apply`): the same clamp as a
  row gather's through the same start indices (`GatherRows.clampRow`). The extents and the index width are arbitrary.
-/
import Idealize.ShloMosaic.PureOps.ShapeOps
import Idealize.ShloMosaic.Lib.ValueIdx
import proofs.«178559_j463856468564_2_alg».proof.Proof.LibGatherRows

namespace Idealize.ShloMosaic.GatherVec

open Idealize.ShloMosaic Idealize.ShloMosaic.ValueIdx

variable {α : Type}

/-- The dimension numbers of a gather from an `[N]` operand through `[E, 1]` start indices. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped start index `e`. -/
theorem gather_vec_apply {N E w : Nat} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.clampRow N hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The same for ANY dimension numbers between these shapes whose fields are a vector gather's (for a record stated field
    by field, each hypothesis is `rfl`). -/
theorem gather_vec_apply' {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (GatherRows.clampRow N hN (idx (ix2 e (0 : Fin 1))))) := by
  obtain ⟨od, cd, ob, sb, sm, iv, ss, wf⟩ := d
  simp only at h1 h2 h3 h4 h5 h6 h7
  subst h1 h2 h3 h4 h5 h6 h7
  exact gather_vec_apply hN wf x idx e

end Idealize.ShloMosaic.GatherVec
-- ==== Proof.GcnAlgebra.lean ====
/-
  THE TWO ORDERS OF A TWO-LAYER GRAPH CONVOLUTION, AND THEIR EQUALITY OVER THE REALS.

  Nodes `ν`, edges `ι`; an edge `e` reads its source node `src e` and lands on the nodes `n` with `land e n`; on every
  node it lands on, its (clamped) target `tgt e` is that node. With `d` the per-node normalisation, one layer of the
  convolution is, at node `n`,   ∑ over the edges landing on n of  d(src e) · d(tgt e) · (features of src e) · W  + b.

  Written in the reference's order the edge weight `d(src e) · d(tgt e)` multiplies the transformed source row inside the
  sum (`hiddenR`, `outR`). Written in the kernel's order the source factor `d(src e)` is applied to the node array before
  the edges read it and the target factor `d n` after the sum; in the first layer the transform `W1` is moreover applied
  AFTER the aggregation (`hiddenK`, `outK`). Over a commutative ring the two orders agree: the target factor is constant
  on the edges that land on `n` and leaves the sum, and the matrix product exchanges with the sum over edges
  (`hidden_real`, `out_real`). The extended reals are not a ring (distributivity fails at the infinities), so the
  statement there (`outK_eq_outR`) asks that every input be a real number: both orders are then the image of the real
  computation (`hiddenK_coe` … `outR_coe`).
-/
import Mathlib.Data.EReal.Operations
import Mathlib.Algebra.BigOperators.Ring.Finset
import Mathlib.Algebra.BigOperators.Group.Finset.Sigma
import Mathlib.Tactic.Ring
import Mathlib.Tactic.Push

noncomputable section

open scoped BigOperators

namespace Cert.Gcn

section Defs

variable {R : Type} [AddCommMonoid R] [Mul R] [Max R]
variable {ι ν κ₁ κ₂ κ₃ : Type} [Fintype ι] [Fintype κ₁] [Fintype κ₂] [Fintype κ₃]
variable (land : ι → ν → Prop) [∀ e n, Decidable (land e n)] (src tgt : ι → ν)
variable (d : ν → R) (x : ν → κ₁ → R) (W1 : κ₁ → κ₂ → R) (b1 : κ₂ → R) (W2 : κ₂ → κ₃ → R) (b2 : κ₃ → R)

/-- The sum of a per-edge quantity over the edges that land on node `n`. -/
def seg (f : ι → R) (n : ν) : R := ∑ e, if land e n then f e else 0

/-- The hidden layer in the kernel's order: scale the node features by `d`, sum them over the landing edges, scale
    by `d n`, THEN transform by `W1`, add the bias, clip at zero. -/
def hiddenK (n : ν) (j : κ₂) : R :=
  max ((∑ k, (seg land (fun e => x (src e) k * d (src e)) n * d n) * W1 k j) + b1 j) 0

/-- The output in the kernel's order: transform the hidden layer by `W2` and scale by `d`, sum over the landing edges,
    scale by `d n`, add the bias. -/
def outK (n : ν) (q : κ₃) : R :=
  seg land (fun e => (∑ j, hiddenK land src d x W1 b1 (src e) j * W2 j q) * d (src e)) n * d n + b2 q

/-- The hidden layer in the reference's order: the edge weight `d(src e) · d(tgt e)` times the transformed source row,
    summed over the landing edges, plus the bias, clipped at zero. -/
def hiddenR (n : ν) (j : κ₂) : R :=
  max (seg land (fun e => (d (src e) * d (tgt e)) * (∑ k, x (src e) k * W1 k j)) n + b1 j) 0

/-- The output in the reference's order. -/
def outR (n : ν) (q : κ₃) : R :=
  seg land (fun e => (d (src e) * d (tgt e)) * (∑ j, hiddenR land src tgt d x W1 b1 (src e) j * W2 j q)) n + b2 q

end Defs

section Real

variable {ι ν κ₁ κ₂ κ₃ : Type} [Fintype ι] [Fintype κ₁] [Fintype κ₂] [Fintype κ₃]
variable (land : ι → ν → Prop) [∀ e n, Decidable (land e n)] (src tgt : ι → ν)
variable (htgt : ∀ e n, land e n → tgt e = n)
variable (d : ν → ℝ) (x : ν → κ₁ → ℝ) (W1 : κ₁ → κ₂ → ℝ) (b1 : κ₂ → ℝ) (W2 : κ₂ → κ₃ → ℝ) (b2 : κ₃ → ℝ)

include htgt in
/-- Over the reals the first layer's two orders agree: the target factor leaves the sum over the landing edges and the
    product with `W1` exchanges with that sum. -/
theorem hidden_real (n : ν) (j : κ₂) :
    hiddenK land src d x W1 b1 n j = hiddenR land src tgt d x W1 b1 n j := by
  unfold hiddenK hiddenR seg
  congr 2
  simp only [Finset.sum_mul]
  rw [Finset.sum_comm]
  refine Finset.sum_congr rfl fun e _ => ?_
  by_cases h : land e n
  · simp only [if_pos h, htgt e n h, Finset.mul_sum]
    refine Finset.sum_congr rfl fun k _ => ?_
    ring
  · simp only [if_neg h, zero_mul, Finset.sum_const_zero]

include htgt in
/-- Over the reals the second layer's two orders agree, given the first's. -/
theorem out_real (n : ν) (q : κ₃) :
    outK land src d x W1 b1 W2 b2 n q = outR land src tgt d x W1 b1 W2 b2 n q := by
  unfold outK outR seg
  congr 1
  rw [Finset.sum_mul]
  refine Finset.sum_congr rfl fun e _ => ?_
  by_cases h : land e n
  · simp only [if_pos h, htgt e n h]
    have hh : ∀ j, hiddenK land src d x W1 b1 (src e) j = hiddenR land src tgt d x W1 b1 (src e) j :=
      fun j => hidden_real land src tgt htgt d x W1 b1 (src e) j
    simp only [hh]
    ring
  · simp only [if_neg h, zero_mul]

end Real

section Coe

variable {ι ν κ₁ κ₂ κ₃ : Type} [Fintype ι] [Fintype κ₁] [Fintype κ₂] [Fintype κ₃]
variable (land : ι → ν → Prop) [∀ e n, Decidable (land e n)] (src tgt : ι → ν)

/-- The inclusion of the reals in the extended reals respects finite sums. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- … and the maximum of two reals. -/
theorem coe_max (a b : ℝ) : ((max a b : ℝ) : EReal) = max (a : EReal) (b : EReal) :=
  (EReal.coe_strictMono.monotone).map_max

/-- … and a choice between a real and zero. -/
theorem coe_ite (p : Prop) [Decidable p] (a : ℝ) : ((if p then a else 0 : ℝ) : EReal) = if p then (a : EReal) else 0 := by
  split <;> simp

/-- A sum over the landing edges of real quantities is the real sum. -/
theorem seg_coe (f : ι → ℝ) (n : ν) : seg land (fun e => (f e : EReal)) n = ((seg land f n : ℝ) : EReal) := by
  unfold seg
  rw [coe_sum]
  exact Finset.sum_congr rfl fun e _ => (coe_ite _ _).symm

variable (d : ν → ℝ) (x : ν → κ₁ → ℝ) (W1 : κ₁ → κ₂ → ℝ) (b1 : κ₂ → ℝ) (W2 : κ₂ → κ₃ → ℝ) (b2 : κ₃ → ℝ)

/-- On real inputs the kernel's hidden layer, computed in the extended reals, is the real computation. -/
theorem hiddenK_coe (n : ν) (j : κ₂) :
    hiddenK land src (fun n => (d n : EReal)) (fun n k => (x n k : EReal)) (fun k j => (W1 k j : EReal)) (fun j => (b1 j : EReal)) n j
      = ((hiddenK land src d x W1 b1 n j : ℝ) : EReal) := by
  unfold hiddenK
  simp only [← EReal.coe_mul, seg_coe land, ← coe_sum, ← EReal.coe_add]
  rw [coe_max]; rfl

/-- … and so is its output. -/
theorem outK_coe (n : ν) (q : κ₃) :
    outK land src (fun n => (d n : EReal)) (fun n k => (x n k : EReal)) (fun k j => (W1 k j : EReal)) (fun j => (b1 j : EReal))
        (fun j q => (W2 j q : EReal)) (fun q => (b2 q : EReal)) n q
      = ((outK land src d x W1 b1 W2 b2 n q : ℝ) : EReal) := by
  unfold outK
  simp only [hiddenK_coe, ← EReal.coe_mul, ← coe_sum, seg_coe land, ← EReal.coe_add]

/-- On real inputs the reference's hidden layer, computed in the extended reals, is the real computation. -/
theorem hiddenR_coe (n : ν) (j : κ₂) :
    hiddenR land src tgt (fun n => (d n : EReal)) (fun n k => (x n k : EReal)) (fun k j => (W1 k j : EReal)) (fun j => (b1 j : EReal)) n j
      = ((hiddenR land src tgt d x W1 b1 n j : ℝ) : EReal) := by
  unfold hiddenR
  simp only [← EReal.coe_mul, ← coe_sum, seg_coe land, ← EReal.coe_add]
  rw [coe_max]; rfl

/-- … and so is its output. -/
theorem outR_coe (n : ν) (q : κ₃) :
    outR land src tgt (fun n => (d n : EReal)) (fun n k => (x n k : EReal)) (fun k j => (W1 k j : EReal)) (fun j => (b1 j : EReal))
        (fun j q => (W2 j q : EReal)) (fun q => (b2 q : EReal)) n q
      = ((outR land src tgt d x W1 b1 W2 b2 n q : ℝ) : EReal) := by
  unfold outR
  simp only [hiddenR_coe, ← EReal.coe_mul, ← coe_sum, seg_coe land, ← EReal.coe_add]

/-- THE TWO ORDERS AGREE ON THE EXTENDED REALS WHEN EVERY INPUT IS A REAL NUMBER. -/
theorem outK_eq_outR (htgt : ∀ e n, land e n → tgt e = n)
    (D : ν → EReal) (X : ν → κ₁ → EReal) (A1 : κ₁ → κ₂ → EReal) (B1 : κ₂ → EReal) (A2 : κ₂ → κ₃ → EReal) (B2 : κ₃ → EReal)
    (hD : ∀ n, ∃ r : ℝ, D n = r) (hX : ∀ n k, ∃ r : ℝ, X n k = r) (hA1 : ∀ k j, ∃ r : ℝ, A1 k j = r)
    (hB1 : ∀ j, ∃ r : ℝ, B1 j = r) (hA2 : ∀ j q, ∃ r : ℝ, A2 j q = r) (hB2 : ∀ q, ∃ r : ℝ, B2 q = r) (n : ν) (q : κ₃) :
    outK land src D X A1 B1 A2 B2 n q = outR land src tgt D X A1 B1 A2 B2 n q := by
  choose d hd using hD
  choose x hx using hX
  choose W1 hW1 using hA1
  choose b1 hb1 using hB1
  choose W2 hW2 using hA2
  choose b2 hb2 using hB2
  obtain rfl : D = fun n => (d n : EReal) := funext hd
  obtain rfl : X = fun n k => (x n k : EReal) := funext fun n => funext fun k => hx n k
  obtain rfl : A1 = fun k j => (W1 k j : EReal) := funext fun k => funext fun j => hW1 k j
  obtain rfl : B1 = fun j => (b1 j : EReal) := funext hb1
  obtain rfl : A2 = fun j q => (W2 j q : EReal) := funext fun j => funext fun q => hW2 j q
  obtain rfl : B2 = fun q => (b2 q : EReal) := funext hb2
  rw [outK_coe, outR_coe, out_real land src tgt htgt]

end Coe

end Cert.Gcn

end
-- ==== Proof.NodeIndex.lean ====
/-
  INDEX WORDS AS NODES, AND THE NORMALISATION AS A REAL NUMBER.

  An index word `b` (a signed 32-bit integer) names a node of a 250000-node graph in two ways. A GATHER first
  normalises it as numpy does (a negative index counts from the end: `b + 250000`, `wrap`) and then clamps it into
  `[0, 249999]` (`node`). A SCATTER takes it as it is and drops it unless it is a node number. So on every edge a
  scatter keeps — its word read signed IS a node number `n` — the gather reads that same node `n`
  (`node_of_toInt_eq`): a nonnegative word is not moved by the normalisation, and a word in range is not moved by the
  clamp.

  The per-node normalisation is `1 / √deg` where the in-degree `deg` is positive and `0` where it is not. Whenever
  `deg` is a real number this is a real number: the reciprocal root of a positive real, or zero (`dis_real`).
-/
import Idealize.ShloMosaic.PureOps.Ideal
import Idealize.ShloMosaic.PureOps.Ideal.Laws
import proofs.«178559_j463856468564_2_alg».proof.Proof.LibGatherRows

noncomputable section

namespace Cert.NodeIndex

open Idealize.ShloMosaic

/-- numpy's index normalisation on a 250000-long axis: a negative index counts from the end. -/
def wrap (b : BitVec 32) : BitVec 32 := Scalar.select (IntOp.cmpi .slt b 0#32) (IntOp.addi b 250000#32) b

/-- The node a gather reads through the index word `b`: normalised, then clamped into range. -/
def node (b : BitVec 32) : Fin 250000 := GatherRows.clampRow 250000 (by decide) (wrap b)

/-- A nonnegative index word is not moved by the normalisation. -/
theorem wrap_of_nonneg (b : BitVec 32) (h : 0 ≤ b.toInt) : wrap b = b := by
  unfold wrap Scalar.select IntOp.cmpi
  have hs : b.slt 0#32 = false := by
    unfold BitVec.slt
    exact decide_eq_false (by rw [BitVec.toInt_zero]; omega)
  rw [hs]
  rfl

/-- An index word that is a node number names that node. -/
theorem node_of_toInt_eq (b : BitVec 32) (n : Fin 250000) (h : b.toInt = (n.val : Int)) : node b = n := by
  unfold node
  rw [wrap_of_nonneg b (by rw [h]; exact Int.natCast_nonneg _)]
  exact GatherRows.clampRow_of_toInt_eq _ b n h

/-- The normalisation of a node whose in-degree is a real number is a real number: `1 / √deg` for a positive degree,
    zero otherwise. -/
theorem dis_real (deg : EReal) (hdeg : ∃ r : ℝ, deg = r) :
    ∃ r : ℝ, Scalar.select (FloatOps.cmpf (F := Ideal) (φ := .f32) .ogt deg (Ideal.ofBits .f32 0x00000000#32))
        (FloatOps.hostUnary (F := Ideal) (φ := .f32) .rsqrt deg) (Ideal.ofBits .f32 0x00000000#32) = r := by
  obtain ⟨r, rfl⟩ := hdeg
  rw [Ideal.ofBits_zero_f32, Ideal.hostUnary_rsqrt_def]
  unfold Scalar.select
  split_ifs with h
  · have hpos : (0 : EReal) < (r : EReal) := by
      by_contra hn
      have : FloatOps.cmpf (F := Ideal) (φ := .f32) .ogt (r : EReal) 0 = 0#1 := by
        show BitVec.ofBool (decide ((0 : EReal) < (r : EReal))) = 0#1
        rw [decide_eq_false hn]; rfl
      rw [this] at h
      exact absurd h (by decide)
    have hr : 0 < r := by exact_mod_cast hpos
    refine ⟨(Real.sqrt r)⁻¹, ?_⟩
    show (if r < 0 then (⊥ : EReal) else if r = 0 then ⊤ else (((Real.sqrt r)⁻¹ : ℝ) : EReal)) = _
    rw [if_neg (not_lt.mpr hr.le), if_neg hr.ne']
  · exact ⟨0, rfl⟩

end Cert.NodeIndex

end
-- ==== Proof.Graph.lean ====
/-
  THE GRAPH AN EDGE LIST SPELLS, as both programs read it.

  Two vectors of 4250000 index words list the edges: `row e` the source of edge `e`, `col e` its target. A scatter
  through `col` adds edge `e` into node `n` exactly when the word `col e`, read signed, is the number `n` (`land`); a
  gather through `row` (or `col`) reads the node the word names after numpy's normalisation and the clamp (`src`,
  `tgt`: `NodeIndex.node`). On an edge that lands on `n` the gathered target is `n` itself (`tgt_of_land`).
-/
import Idealize.ShloMosaic.Lib.ValueIdx
import proofs.«178559_j463856468564_2_alg».proof.Proof.NodeIndex

noncomputable section

namespace Cert.Graph

open Idealize.ShloMosaic Idealize.ShloMosaic.ValueIdx

/-- Edge `e` lands on node `n`: its target word, read signed, is `n`. -/
def land (col : IVec (⟨1, ![4250000]⟩ : Shape) 32) (e : Fin 4250000) (n : Fin 250000) : Prop :=
  (col (ix1 e)).toInt = (n.val : Int)

instance (col : IVec (⟨1, ![4250000]⟩ : Shape) 32) (e : Fin 4250000) (n : Fin 250000) : Decidable (land col e n) := by
  unfold land; infer_instance

/-- The node a gather reads through edge `e`'s source word. -/
def src (row : IVec (⟨1, ![4250000]⟩ : Shape) 32) (e : Fin 4250000) : Fin 250000 := NodeIndex.node (row (ix1 e))

/-- The node a gather reads through edge `e`'s target word. -/
def tgt (col : IVec (⟨1, ![4250000]⟩ : Shape) 32) (e : Fin 4250000) : Fin 250000 := NodeIndex.node (col (ix1 e))

/-- On an edge that lands on `n`, the gathered target is `n`. -/
theorem tgt_of_land (col : IVec (⟨1, ![4250000]⟩ : Shape) 32) (e : Fin 4250000) (n : Fin 250000) (h : land col e n) :
    tgt col e = n :=
  NodeIndex.node_of_toInt_eq _ n h

end Cert.Graph

end
-- ==== Proof.RefValue.lean ====
/-
  THE REFERENCE PROGRAM'S RESULT, READ AT AN INDEX: a two-layer graph convolution in the reference's order.

  The graph has 250000 nodes and 4250000 edges: the 4000000 listed ones followed by one self-loop per node. Two
  vectors of index words spell it, the source words and the target words; they are kept opaque here. What is used of
  them: a SCATTER through the target words adds edge `e` into node `n` exactly when the target word, read signed, is
  the number `n` (`Graph.land`); a GATHER through a word first normalises it (a negative index counts from the end)
  and then clamps it into range, which names a node (`Graph.src`, `Graph.tgt`).

  Stage by stage, each array read at one index:
  * the in-degree of node `n` is the sum, over the edges landing on `n`, of the number one, added to zero: a finite
    sum of real numbers, hence a real number (`deg_real`); the normalisation `dis n` is `1 / √deg n` where the degree
    is positive and zero elsewhere, a real number again (`dis_real`);
  * the weight of edge `e` is `dis (src e) · dis (tgt e)` (`weight_apply`): two gathers of the normalisation, one
    through the normalised source words, one through the normalised target words, multiplied;
  * the first layer transforms the features, `(x W₁)[n, j] = ∑ₖ x[n, k] · W₁[k, j]` (`h0_apply`); the message of edge
    `e` is its weight times the transformed row of its source node (`msg1_apply`); the messages of the edges landing
    on `n` are summed into zero (`agg1_apply`); the bias is added and the result clipped at zero: this is
    `Gcn.hiddenR` at `(n, j)` (`hidden_apply`);
  * the second layer does the same with the hidden layer in place of the features and `W₂`, `b₂` in place of
    `W₁`, `b₁`, without the clip (`h1_apply`, `msg2_apply`, `agg2_apply`): this is `Gcn.outR` at `(n, q)`
    (`ref_out`).

  Every step rewrites ONE operation by its read-at-an-index lemma: the elementwise and layout operations by the
  generated `_apply` lemmas of the reading module, the three scatters and four gathers by the general lemmas on
  accumulating scatters and on gathers through `[E, 1]` index arrays. The composed index functions of the layout
  operations are identified with `ix1` / `ix2` of the coordinates, coordinate by coordinate.
-/
import proofs.«178559_j463856468564_2_alg».proof.Proof.RefReadP
import proofs.«178559_j463856468564_2_alg».proof.Proof.LibScatterRows
import proofs.«178559_j463856468564_2_alg».proof.Proof.LibScatterVec
import proofs.«178559_j463856468564_2_alg».proof.Proof.LibGatherRows
import proofs.«178559_j463856468564_2_alg».proof.Proof.LibGatherVec
import proofs.«178559_j463856468564_2_alg».proof.Proof.GcnAlgebra
import proofs.«178559_j463856468564_2_alg».proof.Proof.NodeIndex
import proofs.«178559_j463856468564_2_alg».proof.Proof.Graph

noncomputable section

open scoped BigOperators

namespace Cert.ReferenceIdeal.RefValue

open Cert.ReferenceIdeal Cert.ReferenceIdeal.ReadP Idealize.ShloMosaic Idealize.ShloMosaic.ValueIdx

/-- A finite sum of real numbers, taken in the extended reals, is a real number. -/
theorem real_sum {α : Type} (s : Finset α) (f : α → EReal) (h : ∀ a, ∃ r : ℝ, f a = r) :
    ∃ r : ℝ, ∑ a ∈ s, f a = r := by
  choose g hg using h
  exact ⟨∑ a ∈ s, g a, by rw [Cert.Gcn.coe_sum]; exact Finset.sum_congr rfl fun a _ => hg a⟩

/-- The word `0x3F800000` is the number one. -/
theorem one_real : ∃ r : ℝ, Ideal.ofBits .f32 0x3F800000#32 = r :=
  ⟨1, by simp [Ideal.ofBits, Ideal.ieee, -EReal.coe_mul]; norm_num⟩

/-- The compare / add / select lines on one index word are the normalisation of a negative index (it counts from the end). -/
theorem wrap_read (b z c : BitVec 32) (hz : z = 0#32) (hc : c = 250000#32) :
    Scalar.select (IntOp.cmpi .slt b z) (IntOp.addi b c) b = Cert.NodeIndex.wrap b := by
  subst hz hc; rfl

/-- The start indices of the normalisation's gather through the sources: the normalised source words. -/
theorem v21_at (x1 : (⟨S2x4000000, .i32⟩ : BufTy).Contents (Elt Ideal)) (e : Fin 4250000) :
    val_main_v21 (F := Ideal) x1 (ix2 e (0 : Fin 1)) = Cert.NodeIndex.wrap (val_main_v3 (F := Ideal) x1 (ix1 e)) := by
  rw [val_main_v21_apply]
  have hi : idx_main_v21 (ix2 e (0 : Fin 1)) = ix1 e := by
    funext a; match a with | ⟨0, _⟩ => rfl
  rw [hi, val_main_v20_apply, val_main_v17_apply, val_main_v19_apply]
  exact wrap_read _ _ _ (val_main_v16_apply _) (val_main_v18_apply _)

/-- The start indices of the normalisation's gather through the targets: the normalised target words. -/
theorem v28_at (x1 : (⟨S2x4000000, .i32⟩ : BufTy).Contents (Elt Ideal)) (e : Fin 4250000) :
    val_main_v28 (F := Ideal) x1 (ix2 e (0 : Fin 1)) = Cert.NodeIndex.wrap (val_main_v6 (F := Ideal) x1 (ix1 e)) := by
  rw [val_main_v28_apply]
  have hi : idx_main_v28 (ix2 e (0 : Fin 1)) = ix1 e := by
    funext a; match a with | ⟨0, _⟩ => rfl
  rw [hi, val_main_v27_apply, val_main_v24_apply, val_main_v26_apply]
  exact wrap_read _ _ _ (val_main_v23_apply _) (val_main_v25_apply _)

/-- The start indices of the first layer's row gather: the normalised source words. -/
theorem v38_at (x1 : (⟨S2x4000000, .i32⟩ : BufTy).Contents (Elt Ideal)) (e : Fin 4250000) :
    val_main_v38 (F := Ideal) x1 (ix2 e (0 : Fin 1)) = Cert.NodeIndex.wrap (val_main_v3 (F := Ideal) x1 (ix1 e)) := by
  rw [val_main_v38_apply]
  have hi : idx_main_v38 (ix2 e (0 : Fin 1)) = ix1 e := by
    funext a; match a with | ⟨0, _⟩ => rfl
  rw [hi, val_main_v37_apply, val_main_v34_apply, val_main_v36_apply]
  exact wrap_read _ _ _ (val_main_v33_apply _) (val_main_v35_apply _)

/-- The start indices of the second layer's row gather: the normalised source words. -/
theorem v56_at (x1 : (⟨S2x4000000, .i32⟩ : BufTy).Contents (Elt Ideal)) (e : Fin 4250000) :
    val_main_v56 (F := Ideal) x1 (ix2 e (0 : Fin 1)) = Cert.NodeIndex.wrap (val_main_v3 (F := Ideal) x1 (ix1 e)) := by
  rw [val_main_v56_apply]
  have hi : idx_main_v56 (ix2 e (0 : Fin 1)) = ix1 e := by
    funext a; match a with | ⟨0, _⟩ => rfl
  rw [hi, val_main_v55_apply, val_main_v52_apply, val_main_v54_apply]
  exact wrap_read _ _ _ (val_main_v51_apply _) (val_main_v53_apply _)

/-- The scatter indices of the degree count: the raw target words. -/
theorem v9_at (x1 : (⟨S2x4000000, .i32⟩ : BufTy).Contents (Elt Ideal)) (e : Fin 4250000) :
    val_main_v9 (F := Ideal) x1 (ix2 e (0 : Fin 1)) = val_main_v6 (F := Ideal) x1 (ix1 e) := by
  rw [val_main_v9_apply]
  have hi : idx_main_v9 (ix2 e (0 : Fin 1)) = ix1 e := by
    funext a; match a with | ⟨0, _⟩ => rfl
  rw [hi]

/-- The scatter indices of the first layer's aggregation: the raw target words. -/
theorem v43_at (x1 : (⟨S2x4000000, .i32⟩ : BufTy).Contents (Elt Ideal)) (e : Fin 4250000) :
    val_main_v43 (F := Ideal) x1 (ix2 e (0 : Fin 1)) = val_main_v6 (F := Ideal) x1 (ix1 e) := by
  rw [val_main_v43_apply]
  have hi : idx_main_v43 (ix2 e (0 : Fin 1)) = ix1 e := by
    funext a; match a with | ⟨0, _⟩ => rfl
  rw [hi]

/-- The scatter indices of the second layer's aggregation: the raw target words. -/
theorem v61_at (x1 : (⟨S2x4000000, .i32⟩ : BufTy).Contents (Elt Ideal)) (e : Fin 4250000) :
    val_main_v61 (F := Ideal) x1 (ix2 e (0 : Fin 1)) = val_main_v6 (F := Ideal) x1 (ix1 e) := by
  rw [val_main_v61_apply]
  have hi : idx_main_v61 (ix2 e (0 : Fin 1)) = ix1 e := by
    funext a; match a with | ⟨0, _⟩ => rfl
  rw [hi]

/-- The in-degree of a node (self-loop included) is a real number: a finite sum of ones and zeros. -/
theorem deg_real (x1 : (⟨S2x4000000, .i32⟩ : BufTy).Contents (Elt Ideal)) (n : Fin 250000) :
    ∃ r : ℝ, val_main_v10 (F := Ideal) x1 (ix1 n) = r := by
  unfold val_main_v10
  rw [ScatterVec.scatterAdd_vec_apply' _ rfl rfl rfl rfl]
  rw [val_main_v8_apply, val_main_cst_0_apply]
  obtain ⟨r, hr⟩ := real_sum Finset.univ
    (fun e : Fin 4250000 => if (val_main_v9 (F := Ideal) x1 (ix2 e (0 : Fin 1))).toInt = (n.val : Int)
      then val_main_v7 (F := Ideal) (ix1 e) else 0)
    (fun e => by
      split_ifs
      · rw [val_main_v7_apply, val_main_cst_apply]; exact one_real
      · exact ⟨0, rfl⟩)
  refine ⟨r, ?_⟩
  rw [hr, Ideal.ofBits_def, Ideal.ofBits_zero_f32, zero_add]

/-- THE NORMALISATION IS A REAL NUMBER at every node. -/
theorem dis_real (x1 : (⟨S2x4000000, .i32⟩ : BufTy).Contents (Elt Ideal)) (n : Fin 250000) :
    ∃ r : ℝ, val_main_v15 (F := Ideal) x1 (ix1 n) = (r : EReal) := by
  rw [val_main_v15_apply, val_main_v12_apply, val_main_v13_apply, val_main_v11_apply, val_main_v14_apply,
    val_main_cst_1_apply, val_main_cst_2_apply]
  exact Cert.NodeIndex.dis_real _ (deg_real x1 n)

/-- The normalisation gathered through the source words: the normalisation of the edge's source node. -/
theorem v22_at (x1 : (⟨S2x4000000, .i32⟩ : BufTy).Contents (Elt Ideal)) (e : Fin 4250000) :
    val_main_v22 (F := Ideal) x1 (ix1 e)
      = val_main_v15 (F := Ideal) x1 (ix1 (Cert.Graph.src (val_main_v3 (F := Ideal) x1) e)) := by
  unfold val_main_v22
  rw [GatherVec.gather_vec_apply' (by decide) _ rfl rfl rfl rfl rfl rfl rfl, v21_at]
  rfl

/-- … and through the target words: the normalisation of the edge's target node. -/
theorem v29_at (x1 : (⟨S2x4000000, .i32⟩ : BufTy).Contents (Elt Ideal)) (e : Fin 4250000) :
    val_main_v29 (F := Ideal) x1 (ix1 e)
      = val_main_v15 (F := Ideal) x1 (ix1 (Cert.Graph.tgt (val_main_v6 (F := Ideal) x1) e)) := by
  unfold val_main_v29
  rw [GatherVec.gather_vec_apply' (by decide) _ rfl rfl rfl rfl rfl rfl rfl, v28_at]
  rfl

/-- The edge weight: the product of the two normalisations. -/
theorem weight_apply (x1 : (⟨S2x4000000, .i32⟩ : BufTy).Contents (Elt Ideal)) (e : Fin 4250000) :
    val_main_v30 (F := Ideal) x1 (ix1 e) = (val_main_v15 (F := Ideal) x1 (ix1 (Cert.Graph.src (val_main_v3 (F := Ideal) x1) e))
          * val_main_v15 (F := Ideal) x1 (ix1 (Cert.Graph.tgt (val_main_v6 (F := Ideal) x1) e))) := by
  rw [val_main_v30_apply, v22_at, v29_at]
  rfl

/-- The first layer's transformed features: the matrix product, entry by entry. -/
theorem h0_apply (x0 : (⟨S250000x3, .f32⟩ : BufTy).Contents (Elt Ideal)) (x2 : (⟨S3x16, .f32⟩ : BufTy).Contents (Elt Ideal)) (n : Fin 250000) (j : Fin 16) :
    val_main_v31 (F := Ideal) x0 x2 (ix2 n j) = ∑ k : Fin 3, x0 (ix2 n k) * x2 (ix2 k j) := by
  rw [val_main_v31_apply]
  refine Finset.sum_congr rfl fun k _ => ?_
  have hl : lidx_main_v31 (ix2 n j) k = ix2 n k := by
    funext a; match a with | ⟨0, _⟩ => rfl | ⟨1, _⟩ => rfl
  have hr : ridx_main_v31 (ix2 n j) k = ix2 k j := by
    funext a; match a with | ⟨0, _⟩ => rfl | ⟨1, _⟩ => rfl
  rw [hl, hr]

/-- The first layer's message on edge `e`: the edge weight times the transformed row of its source node. -/
theorem msg1_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (e : Fin 4250000) (j : Fin 16) :
    val_main_v41 (F := Ideal) x0 x1 x2 (ix2 e j)
      = (val_main_v15 (F := Ideal) x1 (ix1 (Cert.Graph.src (val_main_v3 (F := Ideal) x1) e))
          * val_main_v15 (F := Ideal) x1 (ix1 (Cert.Graph.tgt (val_main_v6 (F := Ideal) x1) e)))
        * ∑ k : Fin 3, x0 (ix2 (Cert.Graph.src (val_main_v3 (F := Ideal) x1) e) k) * x2 (ix2 k j) := by
  rw [val_main_v41_apply, val_main_v40_apply]
  have h40 : idx_main_v40 (ix2 e j) = ix2 e (0 : Fin 1) := by
    funext a; match a with | ⟨0, _⟩ => rfl | ⟨1, _⟩ => rfl
  have h32 : idx_main_v32 (ix2 e (0 : Fin 1)) = ix1 e := by
    funext a; match a with | ⟨0, _⟩ => rfl
  rw [h40, val_main_v32_apply, h32, weight_apply]
  unfold val_main_v39
  rw [GatherRows.gather_rows_apply' (by decide) _ rfl rfl rfl rfl rfl rfl rfl, v38_at, ← h0_apply]
  rfl

/-- The first layer's aggregate at node `n`: the sum of the messages of the edges that land on `n`. -/
theorem agg1_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (n : Fin 250000) (j : Fin 16) :
    val_main_v44 (F := Ideal) x0 x1 x2 (ix2 n j)
      = Cert.Gcn.seg (Cert.Graph.land (val_main_v6 (F := Ideal) x1))
          (fun e => (val_main_v15 (F := Ideal) x1 (ix1 (Cert.Graph.src (val_main_v3 (F := Ideal) x1) e))
          * val_main_v15 (F := Ideal) x1 (ix1 (Cert.Graph.tgt (val_main_v6 (F := Ideal) x1) e)))
            * ∑ k : Fin 3, x0 (ix2 (Cert.Graph.src (val_main_v3 (F := Ideal) x1) e) k) * x2 (ix2 k j)) n := by
  unfold val_main_v44
  rw [ScatterRows.scatterAdd_rows_apply' _ rfl rfl rfl rfl, val_main_v42_apply, val_main_cst_8_apply,
    Ideal.ofBits_def, Ideal.ofBits_zero_f32, zero_add]
  rw [Cert.Gcn.seg]
  refine Finset.sum_congr rfl fun e _ => ?_
  rw [v43_at, msg1_apply]
  exact if_congr Iff.rfl rfl rfl

/-- THE HIDDEN LAYER read at `(n, j)`, in the reference's order. -/
theorem hidden_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (x3 : (⟨S16, .f32⟩ : BufTy).Contents (Elt Ideal)) (n : Fin 250000) (j : Fin 16) :
    val_main_v48 (F := Ideal) x0 x1 x2 x3 (ix2 n j)
      = Cert.Gcn.hiddenR (Cert.Graph.land (val_main_v6 (F := Ideal) x1)) (Cert.Graph.src (val_main_v3 (F := Ideal) x1)) (Cert.Graph.tgt (val_main_v6 (F := Ideal) x1))
        (fun n => val_main_v15 (F := Ideal) x1 (ix1 n)) (fun n k => x0 (ix2 n k)) (fun k j => x2 (ix2 k j)) (fun j => x3 (ix1 j)) n j := by
  rw [val_main_v48_apply, val_main_v47_apply, agg1_apply, val_main_v46_apply, val_main_v45_apply,
    val_main_call1_v0_apply, val_main_call1_cst_apply, Ideal.ofBits_def, Ideal.ofBits_zero_f32]
  have hb : idx_main_v45 (idx_main_v46 (ix2 n j)) = ix1 j := by
    funext a; match a with | ⟨0, _⟩ => rfl
  rw [hb, Cert.Gcn.hiddenR, Ideal.maximumf_def, Ideal.addf_def]

/-- The second layer's transformed features: the hidden layer times the second weight matrix, entry by entry. -/
theorem h1_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (x3 : (⟨S16, .f32⟩ : BufTy).Contents (Elt Ideal)) (x4 : (⟨S16x7, .f32⟩ : BufTy).Contents (Elt Ideal)) (n : Fin 250000) (q : Fin 7) :
    val_main_v49 (F := Ideal) x0 x1 x2 x3 x4 (ix2 n q)
      = ∑ j : Fin 16, Cert.Gcn.hiddenR (Cert.Graph.land (val_main_v6 (F := Ideal) x1)) (Cert.Graph.src (val_main_v3 (F := Ideal) x1)) (Cert.Graph.tgt (val_main_v6 (F := Ideal) x1))
        (fun n => val_main_v15 (F := Ideal) x1 (ix1 n)) (fun n k => x0 (ix2 n k)) (fun k j => x2 (ix2 k j)) (fun j => x3 (ix1 j)) n j * x4 (ix2 j q) := by
  rw [val_main_v49_apply]
  refine Finset.sum_congr rfl fun j _ => ?_
  have hl : lidx_main_v49 (ix2 n q) j = ix2 n j := by
    funext a; match a with | ⟨0, _⟩ => rfl | ⟨1, _⟩ => rfl
  have hr : ridx_main_v49 (ix2 n q) j = ix2 j q := by
    funext a; match a with | ⟨0, _⟩ => rfl | ⟨1, _⟩ => rfl
  rw [hl, hr, hidden_apply]

/-- The second layer's message on edge `e`: the edge weight times the transformed hidden row of its source node. -/
theorem msg2_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (x3 : (⟨S16, .f32⟩ : BufTy).Contents (Elt Ideal)) (x4 : (⟨S16x7, .f32⟩ : BufTy).Contents (Elt Ideal)) (e : Fin 4250000) (q : Fin 7) :
    val_main_v59 (F := Ideal) x0 x1 x2 x3 x4 (ix2 e q)
      = (val_main_v15 (F := Ideal) x1 (ix1 (Cert.Graph.src (val_main_v3 (F := Ideal) x1) e))
          * val_main_v15 (F := Ideal) x1 (ix1 (Cert.Graph.tgt (val_main_v6 (F := Ideal) x1) e)))
        * ∑ j : Fin 16, Cert.Gcn.hiddenR (Cert.Graph.land (val_main_v6 (F := Ideal) x1)) (Cert.Graph.src (val_main_v3 (F := Ideal) x1)) (Cert.Graph.tgt (val_main_v6 (F := Ideal) x1))
        (fun n => val_main_v15 (F := Ideal) x1 (ix1 n)) (fun n k => x0 (ix2 n k)) (fun k j => x2 (ix2 k j)) (fun j => x3 (ix1 j)) (Cert.Graph.src (val_main_v3 (F := Ideal) x1) e) j * x4 (ix2 j q) := by
  rw [val_main_v59_apply, val_main_v58_apply]
  have h58 : idx_main_v58 (ix2 e q) = ix2 e (0 : Fin 1) := by
    funext a; match a with | ⟨0, _⟩ => rfl | ⟨1, _⟩ => rfl
  have h50 : idx_main_v50 (ix2 e (0 : Fin 1)) = ix1 e := by
    funext a; match a with | ⟨0, _⟩ => rfl
  rw [h58, val_main_v50_apply, h50, weight_apply]
  unfold val_main_v57
  rw [GatherRows.gather_rows_apply' (by decide) _ rfl rfl rfl rfl rfl rfl rfl, v56_at]
  have hs : GatherRows.clampRow 250000 (by decide) (Cert.NodeIndex.wrap (val_main_v3 (F := Ideal) x1 (ix1 e)))
      = Cert.Graph.src (val_main_v3 (F := Ideal) x1) e := rfl
  rw [hs, h1_apply, Ideal.mulf_def]

/-- The second layer's aggregate at node `n`: the sum of the messages of the edges that land on `n`. -/
theorem agg2_apply (x0 : (⟨S250000x3, .f32⟩ : BufTy).Contents (Elt Ideal)) (x1 : (⟨S2x4000000, .i32⟩ : BufTy).Contents (Elt Ideal)) (x2 : (⟨S3x16, .f32⟩ : BufTy).Contents (Elt Ideal)) (x3 : (⟨S16, .f32⟩ : BufTy).Contents (Elt Ideal)) (x4 : (⟨S16x7, .f32⟩ : BufTy).Contents (Elt Ideal)) (n : Fin 250000) (q : Fin 7) :
    val_main_v62 (F := Ideal) x0 x1 x2 x3 x4 (ix2 n q)
      = Cert.Gcn.seg (Cert.Graph.land (val_main_v6 (F := Ideal) x1))
          (fun e => (val_main_v15 (F := Ideal) x1 (ix1 (Cert.Graph.src (val_main_v3 (F := Ideal) x1) e))
          * val_main_v15 (F := Ideal) x1 (ix1 (Cert.Graph.tgt (val_main_v6 (F := Ideal) x1) e)))
            * ∑ j : Fin 16, Cert.Gcn.hiddenR (Cert.Graph.land (val_main_v6 (F := Ideal) x1)) (Cert.Graph.src (val_main_v3 (F := Ideal) x1)) (Cert.Graph.tgt (val_main_v6 (F := Ideal) x1))
        (fun n => val_main_v15 (F := Ideal) x1 (ix1 n)) (fun n k => x0 (ix2 n k)) (fun k j => x2 (ix2 k j)) (fun j => x3 (ix1 j)) (Cert.Graph.src (val_main_v3 (F := Ideal) x1) e) j * x4 (ix2 j q)) n := by
  unfold val_main_v62
  rw [ScatterRows.scatterAdd_rows_apply' _ rfl rfl rfl rfl, val_main_v60_apply, val_main_cst_11_apply,
    Ideal.ofBits_def, Ideal.ofBits_zero_f32, zero_add]
  rw [Cert.Gcn.seg]
  refine Finset.sum_congr rfl fun e _ => ?_
  rw [v61_at, msg2_apply]
  exact if_congr Iff.rfl rfl rfl

/-- THE REFERENCE'S RESULT read at `(n, q)`: the two-layer graph convolution in the reference's order. -/
theorem ref_out (x0 : (⟨S250000x3, .f32⟩ : BufTy).Contents (Elt Ideal)) (x1 : (⟨S2x4000000, .i32⟩ : BufTy).Contents (Elt Ideal))
    (x2 : (⟨S3x16, .f32⟩ : BufTy).Contents (Elt Ideal)) (x3 : (⟨S16, .f32⟩ : BufTy).Contents (Elt Ideal))
    (x4 : (⟨S16x7, .f32⟩ : BufTy).Contents (Elt Ideal)) (x5 : (⟨S7, .f32⟩ : BufTy).Contents (Elt Ideal)) (n : Fin 250000) (q : Fin 7) :
    val_main_v65 (F := Ideal) x0 x1 x2 x3 x4 x5 (ix2 n q)
      = Cert.Gcn.outR (Cert.Graph.land (val_main_v6 (F := Ideal) x1)) (Cert.Graph.src (val_main_v3 (F := Ideal) x1)) (Cert.Graph.tgt (val_main_v6 (F := Ideal) x1))
        (fun n => val_main_v15 (F := Ideal) x1 (ix1 n)) (fun n k => x0 (ix2 n k)) (fun k j => x2 (ix2 k j)) (fun j => x3 (ix1 j))
        (fun j q => x4 (ix2 j q)) (fun q => x5 (ix1 q)) n q := by
  rw [val_main_v65_apply, agg2_apply, val_main_v64_apply, val_main_v63_apply]
  have hb : idx_main_v63 (idx_main_v64 (ix2 n q)) = ix1 q := by
    funext a; match a with | ⟨0, _⟩ => rfl
  rw [hb, Cert.Gcn.outR, Ideal.addf_def]

end Cert.ReferenceIdeal.RefValue

end
-- ==== Proof.KernelRun.lean ====
/-
  THE IDEALIZED KERNEL'S RUN, WITH ITS RESULT NAMED.

  @main is nine segments: stretches of host operations and four pipelined regions. The contents of the device's buffers
  at each boundary are a fold through the segments from the launch memory (`Gen.W0` … `Gen.W9`: a stretch applies its
  operations, a region replaces its arrays by what its write-backs leave). Every weakly fair execution terminates,
  nothing faulting, with every unscoped buffer at the last boundary's contents; so the result buffer ends at
  `Gen.W9 … main_v42` and the argument arrays end as launched. The value modules read that last fold back to a function
  of the arguments.
-/
import proofs.«178559_j463856468564_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the launch over the nine segments, the last thread state read against
    the final state. -/
theorem run_out : θ_run defs (onTc (τ := τ) (main (F := F))) ⟨m, fun _ => 0, ρ⟩ (fun r => ∀ c : Dev nD,
      r.2.mem ((c.tc : Thread nD τ).loc main_v42) = W9 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v42 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.KernelBase.lean ====
/-
  What the kernel program's host lines compute from the edge-index argument, and which buffers each later segment
  leaves alone.

  The program's first host lines read only the edge-index argument `ei`, a `2 × 4000000` array of words. Row 0 of `ei`,
  followed by the node numbers `0 … 249999`, is the vector of the edges' source words (`rowK`); row 1, followed by the same
  node numbers, the vector of their target words (`colK`): the appended part is one self-loop per node. The in-degree of
  a node is the scatter-add, from zero, of a vector of ones through the target words (`degK`); the normalisation is
  `1 / √deg` where the degree is positive and `0` elsewhere (`disK`), and it is kept as a column (`dis2K`).

  The device's buffer contents at the boundaries of the program's segments are a fold: a stretch of host operations
  rewrites the buffers its operations write and leaves the rest; a kernel region rewrites its output array and leaves the
  rest. Read through that fold, the source words, the target words and the normalisation column hold `rowK ei`, `colK ei`
  and `dis2K ei` from the first kernel region on, and an argument array holds its launch contents, at every boundary
  where a later segment reads them (`W3_…` to `W8_…`).
-/
import proofs.«178559_j463856468564_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Base

open Cert.KernelIdeal Cert.KernelIdeal.Gen Idealize.ShloMosaic Idealize.ShloMosaic.TcCoe Idealize.SL.Sem
open Idealize.ShloMosaic.StableHlo

/-! ## What the first host lines compute from the edge-index argument -/

/-- The edges' source words: row 0 of the edge index, then one self-loop per node. -/
def rowK (ei : IVec S2x4000000 32) : IVec S4250000 32 :=
  concatenate S4250000 0
    [⟨S4000000, shapeCast S4000000 (extractStridedSlice S1x4000000 ![0, 0] ei slices_S2x4000000_S1x4000000_0_0)
        shapeCasts_S1x4000000_S4000000⟩,
      ⟨S250000, iotaInDim S250000 32 0⟩]
    concatenates_S4000000_S250000_S4250000_d0

/-- The edges' target words: row 1 of the edge index, then one self-loop per node. -/
def colK (ei : IVec S2x4000000 32) : IVec S4250000 32 :=
  concatenate S4250000 0
    [⟨S4000000, shapeCast S4000000 (extractStridedSlice S1x4000000 ![1, 0] ei slices_S2x4000000_S1x4000000_1_0)
        shapeCasts_S1x4000000_S4000000⟩,
      ⟨S250000, iotaInDim S250000 32 0⟩]
    concatenates_S4000000_S250000_S4250000_d0

/-- The in-degrees: a vector of ones scatter-added, from zero, through the target words. -/
def degK (ei : IVec S2x4000000 32) : FVec Ideal S250000 .f32 :=
  Host.scatterAdd scatter_S250000_S4250000x1_S4250000_n_0_0_1
    (broadcastInDim S250000 ![] bcast_S_S250000 (constant (F := Ideal) S_ .f32 0x00000000#32))
    (broadcastInDim S4250000x1 ![0] bcast_S4250000_S4250000x1_0 (colK ei))
    (broadcastInDim S4250000 ![] bcast_S_S4250000 (constant (F := Ideal) S_ .f32 0x3F800000#32))

/-- The normalisation: `1 / √deg` where the degree is positive, `0` elsewhere. -/
def disK (ei : IVec S2x4000000 32) : FVec Ideal S250000 .f32 :=
  select (cmpf .ogt (degK ei) (broadcastInDim S250000 ![] bcast_S_S250000 (constant (F := Ideal) S_ .f32 0x00000000#32)))
    (Host.rsqrt (degK ei))
    (broadcastInDim S250000 ![] bcast_S_S250000 (constant (F := Ideal) S_ .f32 0x00000000#32))

/-- The normalisation as a column. -/
def dis2K (ei : IVec S2x4000000 32) : FVec Ideal S250000x1 .f32 :=
  broadcastInDim S250000x1 ![0] bcast_S250000_S250000x1_0 (disK ei)

/-! ## The references each stretch of host operations writes, and the buffers it therefore keeps -/

abbrev hostOps0_W : List (Ref sig .tc) :=
  [main_v0, main_v1, main_v2, main_v3, main_v4, main_v5, main_v6, main_cst, main_v7, main_cst_0, main_v8, main_v9,
    main_v10, main_cst_1, main_v11, main_v12, main_v13, main_cst_2, main_v14]
abbrev hostOps0_1_W : List (Ref sig .tc) := [main_v15]
abbrev hostOps0_2_W : List (Ref sig .tc) := [main_v16]
abbrev hostOps1_W : List (Ref sig .tc) :=
  [main_c, main_v18, main_v19, main_c_3, main_v20, main_v21, main_v22, main_v23, main_v24, main_cst_4, main_v25,
    main_v26, main_v27, main_v28]
abbrev hostOps3_W : List (Ref sig .tc) :=
  [main_c_5, main_v31, main_v32, main_c_6, main_v33, main_v34, main_v35, main_v36, main_v37, main_cst_7, main_v38,
    main_v39, main_v40, main_v41]

/-- Each operation of the list writes one reference, a member of `W`. -/
macro "writes_in" : tactic =>
  `(tactic| (simp only [List.Forall, StableHlo.nullary_writes, StableHlo.unary_writes, StableHlo.binary_writes,
      StableHlo.ternary_writes, StableHlo.reshape_writes, StableHlo.TRef.ternary, Finset.singleton_subset_iff, List.mem_toFinset]
             repeat' apply And.intro
             all_goals exact List.mem_map_of_mem (by decide)))

theorem hostOps0_writes : (hostOps0 : List (HloOp τ sig (Elt Ideal))).Forall fun op =>
    op.writes ⊆ (hostOps0_W.map (Proc.devRef (τ := τ) .tc)).toFinset := by writes_in
theorem hostOps0_1_writes : (hostOps0_1 : List (HloOp τ sig (Elt Ideal))).Forall fun op =>
    op.writes ⊆ (hostOps0_1_W.map (Proc.devRef (τ := τ) .tc)).toFinset := by writes_in
theorem hostOps0_2_writes : (hostOps0_2 : List (HloOp τ sig (Elt Ideal))).Forall fun op =>
    op.writes ⊆ (hostOps0_2_W.map (Proc.devRef (τ := τ) .tc)).toFinset := by writes_in
theorem hostOps1_writes : (hostOps1 : List (HloOp τ sig (Elt Ideal))).Forall fun op =>
    op.writes ⊆ (hostOps1_W.map (Proc.devRef (τ := τ) .tc)).toFinset := by writes_in
theorem hostOps3_writes : (hostOps3 : List (HloOp τ sig (Elt Ideal))).Forall fun op =>
    op.writes ⊆ (hostOps3_W.map (Proc.devRef (τ := τ) .tc)).toFinset := by writes_in

variable (m : (ℓ : Loc nD τ sig) → Buf (Elt Ideal) ℓ) (ρ : Dev nD → PrngReg) (c : Dev nD)

/-- A reference a stretch does not write holds, after the stretch, what it held before. -/
theorem W1_of (r : Ref sig .tc) (h : r ∉ hostOps0_W) : W1 m ρ c (Proc.devRef .tc r) = W0 m ρ c (Proc.devRef .tc r) :=
  StableHlo.after_of_writes_sub hostOps0 _ hostOps0_writes h
theorem W2_of (r : Ref sig .tc) (h : r ∉ hostOps0_1_W) : W2 m ρ c (Proc.devRef .tc r) = W1 m ρ c (Proc.devRef .tc r) :=
  StableHlo.after_of_writes_sub hostOps0_1 _ hostOps0_1_writes h
theorem W3_of (r : Ref sig .tc) (h : r ∉ hostOps0_2_W) : W3 m ρ c (Proc.devRef .tc r) = W2 m ρ c (Proc.devRef .tc r) :=
  StableHlo.after_of_writes_sub hostOps0_2 _ hostOps0_2_writes h
theorem W5_of (r : Ref sig .tc) (h : r ∉ hostOps1_W) : W5 m ρ c (Proc.devRef .tc r) = W4 m ρ c (Proc.devRef .tc r) :=
  StableHlo.after_of_writes_sub hostOps1 _ hostOps1_writes h
theorem W8_of (r : Ref sig .tc) (h : r ∉ hostOps3_W) : W8 m ρ c (Proc.devRef .tc r) = W7 m ρ c (Proc.devRef .tc r) :=
  StableHlo.after_of_writes_sub hostOps3 _ hostOps3_writes h

/-! ## After the first stretch (the nineteen operations before the first kernel region's two last host lines) -/

theorem W0_arg (r : Ref sig .tc) : W0 m ρ c (Proc.devRef .tc r) = m ((c : Thread nD τ).loc r) := rfl

theorem W1_v3 : W1 m ρ c (Proc.devRef .tc main_v3) = rowK (m ((c : Thread nD τ).loc main_arg1)) := by
  show StableHlo.after (hostOps0 (F := Ideal)) (W0 m ρ c) (Proc.devRef .tc main_v3) = _
  after_results
  rfl

theorem W1_v6 : W1 m ρ c (Proc.devRef .tc main_v6) = colK (m ((c : Thread nD τ).loc main_arg1)) := by
  show StableHlo.after (hostOps0 (F := Ideal)) (W0 m ρ c) (Proc.devRef .tc main_v6) = _
  after_results
  rfl

theorem W1_v12 : W1 m ρ c (Proc.devRef .tc main_v12) = cmpf .ogt (degK (m ((c : Thread nD τ).loc main_arg1))) (broadcastInDim S250000 ![] bcast_S_S250000 (constant (F := Ideal) S_ .f32 0x00000000#32)) := by
  show StableHlo.after (hostOps0 (F := Ideal)) (W0 m ρ c) (Proc.devRef .tc main_v12) = _
  after_results
  rfl

theorem W1_v13 : W1 m ρ c (Proc.devRef .tc main_v13) = Host.rsqrt (degK (m ((c : Thread nD τ).loc main_arg1))) := by
  show StableHlo.after (hostOps0 (F := Ideal)) (W0 m ρ c) (Proc.devRef .tc main_v13) = _
  after_results
  rfl

theorem W1_v14 : W1 m ρ c (Proc.devRef .tc main_v14) = (broadcastInDim S250000 ![] bcast_S_S250000 (constant (F := Ideal) S_ .f32 0x00000000#32)) := by
  show StableHlo.after (hostOps0 (F := Ideal)) (W0 m ρ c) (Proc.devRef .tc main_v14) = _
  after_results
theorem W1_arg0 : W1 m ρ c (Proc.devRef .tc main_arg0) = m ((c : Thread nD τ).loc main_arg0) :=
  W1_of m ρ c main_arg0 (by decide)
theorem W1_arg2 : W1 m ρ c (Proc.devRef .tc main_arg2) = m ((c : Thread nD τ).loc main_arg2) :=
  W1_of m ρ c main_arg2 (by decide)
theorem W1_arg3 : W1 m ρ c (Proc.devRef .tc main_arg3) = m ((c : Thread nD τ).loc main_arg3) :=
  W1_of m ρ c main_arg3 (by decide)
theorem W1_arg4 : W1 m ρ c (Proc.devRef .tc main_arg4) = m ((c : Thread nD τ).loc main_arg4) :=
  W1_of m ρ c main_arg4 (by decide)
theorem W1_arg5 : W1 m ρ c (Proc.devRef .tc main_arg5) = m ((c : Thread nD τ).loc main_arg5) :=
  W1_of m ρ c main_arg5 (by decide)

/-! ## After the select (one operation) -/

/-- The select's result, from any contents `V`. -/
theorem after_select (V : Valuation τ sig (Elt Ideal)) :
    StableHlo.after (hostOps0_1 (F := Ideal)) V (Proc.devRef .tc main_v15)
      = select (V (Proc.devRef .tc main_v12)) (V (Proc.devRef .tc main_v13)) (V (Proc.devRef .tc main_v14)) := by
  after_results
  rfl
theorem W2_v15 : W2 m ρ c (Proc.devRef .tc main_v15) = disK (m ((c : Thread nD τ).loc main_arg1)) := by
  refine (after_select (W1 m ρ c)).trans ?_
  rw [W1_v12 m ρ c, W1_v13 m ρ c, W1_v14 m ρ c]
  rfl
theorem W2_v3 : W2 m ρ c (Proc.devRef .tc main_v3) = rowK (m ((c : Thread nD τ).loc main_arg1)) :=
  (W2_of m ρ c main_v3 (by decide)).trans (W1_v3 m ρ c)
theorem W2_v6 : W2 m ρ c (Proc.devRef .tc main_v6) = colK (m ((c : Thread nD τ).loc main_arg1)) :=
  (W2_of m ρ c main_v6 (by decide)).trans (W1_v6 m ρ c)
theorem W2_arg0 : W2 m ρ c (Proc.devRef .tc main_arg0) = m ((c : Thread nD τ).loc main_arg0) :=
  (W2_of m ρ c main_arg0 (by decide)).trans (W1_arg0 m ρ c)
theorem W2_arg2 : W2 m ρ c (Proc.devRef .tc main_arg2) = m ((c : Thread nD τ).loc main_arg2) :=
  (W2_of m ρ c main_arg2 (by decide)).trans (W1_arg2 m ρ c)
theorem W2_arg3 : W2 m ρ c (Proc.devRef .tc main_arg3) = m ((c : Thread nD τ).loc main_arg3) :=
  (W2_of m ρ c main_arg3 (by decide)).trans (W1_arg3 m ρ c)
theorem W2_arg4 : W2 m ρ c (Proc.devRef .tc main_arg4) = m ((c : Thread nD τ).loc main_arg4) :=
  (W2_of m ρ c main_arg4 (by decide)).trans (W1_arg4 m ρ c)
theorem W2_arg5 : W2 m ρ c (Proc.devRef .tc main_arg5) = m ((c : Thread nD τ).loc main_arg5) :=
  (W2_of m ρ c main_arg5 (by decide)).trans (W1_arg5 m ρ c)

/-! ## At the first kernel region's entry -/

/-- The column broadcast's result, from any contents `V`. -/
theorem after_column (V : Valuation τ sig (Elt Ideal)) :
    StableHlo.after (hostOps0_2 (F := Ideal)) V (Proc.devRef .tc main_v16)
      = broadcastInDim S250000x1 ![0] bcast_S250000_S250000x1_0 (V (Proc.devRef .tc main_v15)) := by
  after_results
theorem W3_v16 : W3 m ρ c (Proc.devRef .tc main_v16) = dis2K (m ((c : Thread nD τ).loc main_arg1)) := by
  refine (after_column (W2 m ρ c)).trans ?_
  rw [W2_v15 m ρ c]
  rfl
theorem W3_v3 : W3 m ρ c (Proc.devRef .tc main_v3) = rowK (m ((c : Thread nD τ).loc main_arg1)) :=
  (W3_of m ρ c main_v3 (by decide)).trans (W2_v3 m ρ c)
theorem W3_v6 : W3 m ρ c (Proc.devRef .tc main_v6) = colK (m ((c : Thread nD τ).loc main_arg1)) :=
  (W3_of m ρ c main_v6 (by decide)).trans (W2_v6 m ρ c)
theorem W3_arg0 : W3 m ρ c (Proc.devRef .tc main_arg0) = m ((c : Thread nD τ).loc main_arg0) :=
  (W3_of m ρ c main_arg0 (by decide)).trans (W2_arg0 m ρ c)
theorem W3_arg2 : W3 m ρ c (Proc.devRef .tc main_arg2) = m ((c : Thread nD τ).loc main_arg2) :=
  (W3_of m ρ c main_arg2 (by decide)).trans (W2_arg2 m ρ c)
theorem W3_arg3 : W3 m ρ c (Proc.devRef .tc main_arg3) = m ((c : Thread nD τ).loc main_arg3) :=
  (W3_of m ρ c main_arg3 (by decide)).trans (W2_arg3 m ρ c)
theorem W3_arg4 : W3 m ρ c (Proc.devRef .tc main_arg4) = m ((c : Thread nD τ).loc main_arg4) :=
  (W3_of m ρ c main_arg4 (by decide)).trans (W2_arg4 m ρ c)
theorem W3_arg5 : W3 m ρ c (Proc.devRef .tc main_arg5) = m ((c : Thread nD τ).loc main_arg5) :=
  (W3_of m ρ c main_arg5 (by decide)).trans (W2_arg5 m ρ c)

/-! ## At the first kernel region's exit: the region writes its output array only -/

theorem W4_v16 : W4 m ρ c (Proc.devRef .tc main_v16) = dis2K (m ((c : Thread nD τ).loc main_arg1)) :=
  ((W4_arr m ρ c 1).trans (((dat0 (V3 m ρ) c).arrAt_in 1 rfl _).trans (A_eq0 (V3 m ρ) c 1))).trans (W3_v16 m ρ c)
theorem W4_v3 : W4 m ρ c (Proc.devRef .tc main_v3) = rowK (m ((c : Thread nD τ).loc main_arg1)) :=
  (W4_of_ne m ρ c main_v3 (by decide)).trans (W3_v3 m ρ c)
theorem W4_v6 : W4 m ρ c (Proc.devRef .tc main_v6) = colK (m ((c : Thread nD τ).loc main_arg1)) :=
  (W4_of_ne m ρ c main_v6 (by decide)).trans (W3_v6 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## At the second kernel region's entry -/

theorem W5_v16 : W5 m ρ c (Proc.devRef .tc main_v16) = dis2K (m ((c : Thread nD τ).loc main_arg1)) :=
  (W5_of m ρ c main_v16 (by decide)).trans (W4_v16 m ρ c)
theorem W5_v3 : W5 m ρ c (Proc.devRef .tc main_v3) = rowK (m ((c : Thread nD τ).loc main_arg1)) :=
  (W5_of m ρ c main_v3 (by decide)).trans (W4_v3 m ρ c)
theorem W5_v6 : W5 m ρ c (Proc.devRef .tc main_v6) = colK (m ((c : Thread nD τ).loc main_arg1)) :=
  (W5_of m ρ c main_v6 (by decide)).trans (W4_v6 m ρ c)
theorem W5_arg2 : W5 m ρ c (Proc.devRef .tc main_arg2) = m ((c : Thread nD τ).loc main_arg2) :=
  (W5_of m ρ c main_arg2 (by decide)).trans (W4_arg2 m ρ c)
theorem W5_arg4 : W5 m ρ c (Proc.devRef .tc main_arg4) = m ((c : Thread nD τ).loc main_arg4) :=
  (W5_of m ρ c main_arg4 (by decide)).trans (W4_arg4 m ρ c)
theorem W5_arg5 : W5 m ρ c (Proc.devRef .tc main_arg5) = m ((c : Thread nD τ).loc main_arg5) :=
  (W5_of m ρ c main_arg5 (by decide)).trans (W4_arg5 m ρ c)

/-! ## At the second kernel region's exit -/

theorem W6_v16 : W6 m ρ c (Proc.devRef .tc main_v16) = dis2K (m ((c : Thread nD τ).loc main_arg1)) :=
  ((W6_arr m ρ c 1).trans (((dat1 (V5 m ρ) c).arrAt_in 1 rfl _).trans (A_eq1 (V5 m ρ) c 1))).trans (W5_v16 m ρ c)
theorem W6_v3 : W6 m ρ c (Proc.devRef .tc main_v3) = rowK (m ((c : Thread nD τ).loc main_arg1)) :=
  (W6_of_ne m ρ c main_v3 (by decide)).trans (W5_v3 m ρ c)
theorem W6_v6 : W6 m ρ c (Proc.devRef .tc main_v6) = colK (m ((c : Thread nD τ).loc main_arg1)) :=
  (W6_of_ne m ρ c main_v6 (by decide)).trans (W5_v6 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)

/-! ## At the third kernel region's exit -/

theorem W7_v16 : W7 m ρ c (Proc.devRef .tc main_v16) = dis2K (m ((c : Thread nD τ).loc main_arg1)) :=
  ((W7_arr m ρ c 1).trans (((dat2 (V6 m ρ) c).arrAt_in 1 rfl _).trans (A_eq2 (V6 m ρ) c 1))).trans (W6_v16 m ρ c)
theorem W7_v3 : W7 m ρ c (Proc.devRef .tc main_v3) = rowK (m ((c : Thread nD τ).loc main_arg1)) :=
  (W7_of_ne m ρ c main_v3 (by decide)).trans (W6_v3 m ρ c)
theorem W7_v6 : W7 m ρ c (Proc.devRef .tc main_v6) = colK (m ((c : Thread nD τ).loc main_arg1)) :=
  (W7_of_ne m ρ c main_v6 (by decide)).trans (W6_v6 m ρ c)
theorem W7_arg5 : W7 m ρ c (Proc.devRef .tc main_arg5) = m ((c : Thread nD τ).loc main_arg5) :=
  (W7_of_ne m ρ c main_arg5 (by decide)).trans (W6_arg5 m ρ c)

/-! ## At the last kernel region's entry -/

theorem W8_v16 : W8 m ρ c (Proc.devRef .tc main_v16) = dis2K (m ((c : Thread nD τ).loc main_arg1)) :=
  (W8_of m ρ c main_v16 (by decide)).trans (W7_v16 m ρ c)

end Cert.KernelIdeal.Base

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SourceScale.lean ====
/-
  THE SOURCE-SIDE SCALING (the first pipelined region): whatever arrays the region finds, it leaves in its output
  array, at node `n` and feature `k`, the feature `x[n, k]` times the node's normalisation `d[n, 0]`.

  The region walks the 250000 nodes in 25 blocks of 10000 rows. At a grid point the body multiplies its block of the
  features by its block of the one-column normalisation array, repeated along the row (`block_apply`); the three windows
  move together, block `t` of each sitting at rows `10000 t … 10000 t + 9999` (`idx_facts`), so what point `t` writes back
  is block `t` of ONE function of the whole arrays (`flushed_eq`), and the 25 blocks cover the output (`cover`).
-/
import proofs.«178559_j463856468564_2_alg».proof.Proof.Gen.KernelIdeal.Frame
import Idealize.ShloMosaic.Lib.Pipeline.Value
import Idealize.ShloMosaic.Lib.ValueIdx
import Idealize.ShloMosaic.Lib.ValueLayout
import proofs.«178559_j463856468564_2_alg».proof.Proof.LibColumns

noncomputable section

namespace Cert.KernelIdeal.SourceScale

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The row of an index of a `[250000, 3]` array, as an index of the one-column array. -/
def col (i : S250000x3.Idx) : S250000x1.Idx := ix2 (⟨(i 0).val, (i 0).isLt⟩ : Fin 250000) (0 : Fin 1)

/-- The scaled features as one function of the whole arrays: `x[n, k] · d[n, 0]`. -/
def scaled (x : S250000x3.Idx → EReal) (d : S250000x1.Idx → EReal) : S250000x3.Idx → EReal :=
  fun i => x i * d (col i)

/-- The body on one block: each entry of the block of features times the entry of the column block in its row. -/
theorem block_apply (x0 : Vec Ideal S10000x3 .f32) (x1 : Vec Ideal S10000x1 .f32) (p : Fin 10000) (k : Fin 3) :
    k0_pay1 x0 x1 (ix2 p k) = x0 (ix2 p k) * x1 (ix2 p (0 : Fin 1)) := by
  unfold k0_pay1
  rw [mulf_apply, broadcastTo_a1_ab_apply, shapeCast_self]

/-- The printed index maps over the grid: the three windows' blocks move together down the rows and stay in column
    block 0. -/
theorem idx_facts : ∀ t : Fin cfg0.N, win0_0.index t (0 : Fin 2) = win0_2.index t (0 : Fin 2)
    ∧ win0_0.index t (1 : Fin 2) = 0 ∧ win0_1.index t (0 : Fin 2) = win0_2.index t (0 : Fin 2)
    ∧ win0_1.index t (1 : Fin 2) = 0 ∧ win0_2.index t (1 : Fin 2) = 0 ∧ win0_2.index t (0 : Fin 2) < 25 :=
  (by decide +kernel : ∀ t : Fin grid0.N, _)

/-- Every row block is some point's. -/
theorem idx_onto : ∀ q : Fin 25, ∃ t : Fin cfg0.N, win0_2.index t = ![q.val, 0] :=
  (by decide +kernel : ∀ q : Fin 25, ∃ t : Fin grid0.N, win0_2.index t = ![q.val, 0])

variable (V : (c : Dev nD) → (b : Ref sig .tc) → Buf (Elt Ideal) ((c : Thread nD τ).loc b))

/-- WHAT POINT `t` WRITES BACK is block `t` of the scaled features of the arrays the region finds. -/
theorem flushed_eq (c : Dev nD) (t : Fin cfg0.N) :
    (dat0 V c).flushed 2 t = ((cfg0.win 2).blk t).view.read (Elt Ideal) (scaled (V c main_arg0) (V c main_v16)) := by
  show (cfg0.win 2).cut (grid0.coords t) ((dat0 V c).after 2 t) = _
  rw [after0_2]
  unfold out0_2
  rw [View.canon_unit_zero hz]
  simp only [View.ld_unit_zero (S := S10000x3) hz, View.ld_unit_zero (S := S10000x1) hz]
  obtain ⟨e0, e1, e2, e3, e4, e5⟩ := idx_facts t
  funext j
  obtain ⟨p, k, rfl⟩ : ∃ (p : Fin 10000) (k : Fin 3), j = ix2 p k := ⟨j 0, j 1, eq_ix2 j⟩
  refine (block_apply _ _ p k).trans ?_
  show FloatOps.mulf (F := Ideal) (φ := .f32) (V c main_arg0 (((cfg0.win 0).blk t).view.emb (ix2 p k)))
      (V c main_v16 (((cfg0.win 1).blk t).view.emb (ix2 p (0 : Fin 1))))
    = scaled (V c main_arg0) (V c main_v16) (((cfg0.win 2).blk t).view.emb (ix2 p k))
  unfold scaled
  have h0 : ((cfg0.win 0).blk t).view.emb (ix2 p k) = ((cfg0.win 2).blk t).view.emb (ix2 p k) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 3 + 1 * k.val = win0_2.index t (1 : Fin 2) * 3 + 1 * k.val; omega
  have h1 : ((cfg0.win 1).blk t).view.emb (ix2 p (0 : Fin 1)) = col (((cfg0.win 2).blk t).view.emb (ix2 p k)) := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]
  rfl

/-- An index of the output is in point `t`'s block iff each coordinate is in the block's range on its axis. -/
theorem mem_blk (t : Fin cfg0.N) (i : S250000x3.Idx) :
    i ∈ ((cfg0.win 2).blk t).view.set ↔ ∀ a : Fin 2, win0_2.index t a * S10000x3.size a ≤ (i a).val ∧ (i a).val < win0_2.index t a * S10000x3.size a + S10000x3.size a := by
  show i ∈ ((View.whole main_v17).slice (win0_2.rect t)).set ↔ _
  rw [View.set_slice_whole, Rect.mem_set_unit]
  exact Iff.rfl

/-- The 25 blocks cover the output: row `r` is in block `r / 10000`. -/
theorem cover (i : S250000x3.Idx) : ∃ t : Fin cfg0.N, (cfg0.win 2).flush t = true ∧ i ∈ ((cfg0.win 2).blk t).view.set := by
  have hi0 : (i 0).val < 250000 := (i 0).isLt
  have hi1 : (i 1).val < 3 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 3 ≤ (i 1).val ∧ (i 1).val < win0_2.index t (1 : Fin 2) * 3 + 3; omega

/-- THE OUTPUT ARRAY after the region: the scaled features of the arrays the region finds. -/
theorem final (c : Dev nD) : (dat0 V c).arrAt 2 cfg0.N = scaled (V c main_arg0) (V c main_v16) :=
  (dat0 V c).arrAt_eq_of_cover 2 (scaled (V c main_arg0) (V c main_v16)) (fun t _ => flushed_eq V c t) cover

end Cert.KernelIdeal.SourceScale

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.HiddenLayer.lean ====
/-
  THE HIDDEN LAYER (the second pipelined region): whatever arrays the region finds — an aggregate `a` of width 3, the
  one-column normalisation `d`, a weight matrix `w` and a one-row bias `b` — it leaves in its output array, at node `n`
  and hidden unit `j`,      max( ∑ₖ (a[n, k] · d[n, 0]) · w[k, j]  +  b[0, j] , 0 ).

  The region walks the 250000 nodes in 25 blocks of 10000 rows; the weight matrix and the bias are whole blocks, the same
  at every point. At a grid point the body scales its block of the aggregate by its block of the normalisation column,
  multiplies by the weights (into a zero accumulator: the plain sum over `k`; the change of float format before the
  product is the identity on extended reals), adds the bias row and clips at zero (`block_apply`). The row windows move
  together (`idx_facts`), so what point `t` writes back is block `t` of ONE function of the whole arrays (`flushed_eq`),
  and the 25 blocks cover the output (`cover`).
-/
import proofs.«178559_j463856468564_2_alg».proof.Proof.Gen.KernelIdeal.Frame
import Idealize.ShloMosaic.Lib.Pipeline.Value
import Idealize.ShloMosaic.Lib.ValueIdx
import Idealize.ShloMosaic.Lib.ValueLayout
import proofs.«178559_j463856468564_2_alg».proof.Proof.LibColumns
import proofs.«178559_j463856468564_2_alg».proof.Proof.LibRowOps

noncomputable section

open scoped BigOperators

namespace Cert.KernelIdeal.HiddenLayer

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The hidden layer at node `n`, unit `j`, from the whole arrays. -/
def unit (a : S250000x3.Idx → EReal) (d : S250000x1.Idx → EReal) (w : S3x16.Idx → EReal) (b : S1x16.Idx → EReal)
    (n : Fin 250000) (j : Fin 16) : EReal :=
  max ((∑ k : Fin 3, (a (ix2 n k) * d (ix2 n (0 : Fin 1))) * w (ix2 k j)) + b (ix2 (0 : Fin 1) j)) 0

/-- The hidden layer as one function of the whole arrays. -/
def hidden (a : S250000x3.Idx → EReal) (d : S250000x1.Idx → EReal) (w : S3x16.Idx → EReal) (b : S1x16.Idx → EReal) :
    S250000x16.Idx → EReal :=
  fun i => unit a d w b ⟨(i 0).val, (i 0).isLt⟩ ⟨(i 1).val, (i 1).isLt⟩

/-- The hidden unit written over any indices that are the node's row, the normalisation's entry, the weight column and
    the bias entry. -/
theorem unit_congr (a : S250000x3.Idx → EReal) (d : S250000x1.Idx → EReal) (w : S3x16.Idx → EReal) (b : S1x16.Idx → EReal)
    (n : Fin 250000) (j : Fin 16) (ia : Fin 3 → S250000x3.Idx) (id : S250000x1.Idx) (iw : Fin 3 → S3x16.Idx) (ib : S1x16.Idx)
    (ha : ∀ k, ia k = ix2 n k) (hd : id = ix2 n (0 : Fin 1)) (hw : ∀ k, iw k = ix2 k j) (hb : ib = ix2 (0 : Fin 1) j) :
    max ((∑ k : Fin 3, (a (ia k) * d id) * w (iw k)) + b ib) 0 = unit a d w b n j := by
  unfold unit
  simp only [ha, hd, hw, hb]

/-- The body on one block. -/
theorem block_apply (x0 : Vec Ideal S10000x3 .f32) (x1 : Vec Ideal S10000x1 .f32) (x2 : Vec Ideal S3x16 .f32)
    (x3 : Vec Ideal S1x16 .f32) (p : Fin 10000) (j : Fin 16) :
    k1_pay1 x0 x1 x2 x3 (ix2 p j)
      = max ((∑ k : Fin 3, (x0 (ix2 p k) * x1 (ix2 p (0 : Fin 1))) * x2 (ix2 k j)) + x3 (ix2 (0 : Fin 1) j)) 0 := by
  unfold k1_pay1
  rw [maximumf_apply, addf_apply, broadcast_apply]
  refine congrArg₂ max (congrArg₂ (· + ·) ?_ ?_) Ideal.ofBits_zero_f32
  · refine (RowOps.matmul_zero_plain_apply dot_S10000x3_S3x16_S10000x16_1_0_0_1_n_n ⟨_, rfl⟩ none _ _ p j).trans ?_
    refine Finset.sum_congr rfl fun k _ => ?_
    rw [truncf_apply, truncf_apply, mulf_apply, shapeCast_self, broadcastTo_a1_ab_apply, shapeCast_self]
  · rw [broadcastTo_1b_ab_apply, shapeCast_self]

/-- The printed index maps over the grid: the row windows' blocks move together down the rows, the weight and bias
    windows stay at block (0, 0). -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 25 :=
  (by decide +kernel : ∀ t : Fin grid1.N, _)

/-- Every row block is some point's. -/
theorem idx_onto : ∀ q : Fin 25, ∃ t : Fin cfg1.N, win1_4.index t = ![q.val, 0] :=
  (by decide +kernel : ∀ q : Fin 25, ∃ t : Fin grid1.N, win1_4.index t = ![q.val, 0])

variable (V : (c : Dev nD) → (b : Ref sig .tc) → Buf (Elt Ideal) ((c : Thread nD τ).loc b))

/-- WHAT POINT `t` WRITES BACK is block `t` of the hidden layer of the arrays the region finds. -/
theorem flushed_eq (c : Dev nD) (t : Fin cfg1.N) :
    (dat1 V c).flushed 4 t = ((cfg1.win 4).blk t).view.read (Elt Ideal)
      (hidden (V c main_v27) (V c main_v16) (V c main_arg2) (V c main_v28)) := by
  show (cfg1.win 4).cut (grid1.coords t) ((dat1 V c).after 4 t) = _
  rw [after1_4]
  unfold out1_4
  rw [View.canon_unit_zero hz]
  simp only [View.ld_unit_zero (S := S10000x3) hz, View.ld_unit_zero (S := S10000x1) hz,
    View.ld_unit_zero (S := S3x16) hz, View.ld_unit_zero (S := S1x16) hz]
  obtain ⟨e0, e1, e2, e3, e4, e5, e6, e7, e8, e9⟩ := idx_facts t
  funext y
  obtain ⟨p, j, rfl⟩ : ∃ (p : Fin 10000) (j : Fin 16), y = ix2 p j := ⟨y 0, y 1, eq_ix2 y⟩
  refine (block_apply _ _ _ _ p j).trans ?_
  have hn : ∀ (k : Fin 3), ((cfg1.win 0).blk t).view.emb (ix2 p k)
      = ix2 (⟨(((cfg1.win 4).blk t).view.emb (ix2 p j) 0).val, (((cfg1.win 4).blk t).view.emb (ix2 p j) 0).isLt⟩ : Fin 250000) k := by
    intro k; funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 3 + 1 * k.val = k.val; omega
  have hd : ((cfg1.win 1).blk t).view.emb (ix2 p (0 : Fin 1))
      = ix2 (⟨(((cfg1.win 4).blk t).view.emb (ix2 p j) 0).val, (((cfg1.win 4).blk t).view.emb (ix2 p j) 0).isLt⟩ : Fin 250000) (0 : Fin 1) := by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 1 + 1 * 0 = 0; omega
  have hw : ∀ (k : Fin 3), ((cfg1.win 2).blk t).view.emb (ix2 k j)
      = ix2 k (⟨(((cfg1.win 4).blk t).view.emb (ix2 p j) 1).val, (((cfg1.win 4).blk t).view.emb (ix2 p j) 1).isLt⟩ : Fin 16) := by
    intro k; funext a; apply Fin.ext
    match a with
    | ⟨0, _⟩ => show win1_2.index t (0 : Fin 2) * 3 + 1 * k.val = k.val; omega
    | ⟨1, _⟩ => show win1_2.index t (1 : Fin 2) * 16 + 1 * j.val = win1_4.index t (1 : Fin 2) * 16 + 1 * j.val; omega
  have hb : ((cfg1.win 3).blk t).view.emb (ix2 (0 : Fin 1) j)
      = ix2 (0 : Fin 1) (⟨(((cfg1.win 4).blk t).view.emb (ix2 p j) 1).val, (((cfg1.win 4).blk t).view.emb (ix2 p j) 1).isLt⟩ : Fin 16) := by
    funext a; apply Fin.ext
    match a with
    | ⟨0, _⟩ => show win1_3.index t (0 : Fin 2) * 1 + 1 * 0 = 0; omega
    | ⟨1, _⟩ => show win1_3.index t (1 : Fin 2) * 16 + 1 * j.val = win1_4.index t (1 : Fin 2) * 16 + 1 * j.val; omega
  exact unit_congr (V c main_v27) (V c main_v16) (V c main_arg2) (V c main_v28)
    ⟨(((cfg1.win 4).blk t).view.emb (ix2 p j) 0).val, (((cfg1.win 4).blk t).view.emb (ix2 p j) 0).isLt⟩
    ⟨(((cfg1.win 4).blk t).view.emb (ix2 p j) 1).val, (((cfg1.win 4).blk t).view.emb (ix2 p j) 1).isLt⟩
    (fun k => ((cfg1.win 0).blk t).view.emb (ix2 p k)) (((cfg1.win 1).blk t).view.emb (ix2 p (0 : Fin 1)))
    (fun k => ((cfg1.win 2).blk t).view.emb (ix2 k j)) (((cfg1.win 3).blk t).view.emb (ix2 (0 : Fin 1) j)) hn hd hw hb

/-- An index of the output is in point `t`'s block iff each coordinate is in the block's range on its axis. -/
theorem mem_blk (t : Fin cfg1.N) (i : S250000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_v29).slice (win1_4.rect t)).set ↔ _
  rw [View.set_slice_whole, Rect.mem_set_unit]
  exact Iff.rfl

/-- The 25 blocks cover the output: row `r` is in block `r / 10000`. -/
theorem cover (i : S250000x16.Idx) : ∃ t : Fin cfg1.N, (cfg1.win 4).flush t = true ∧ i ∈ ((cfg1.win 4).blk t).view.set := by
  have hi0 : (i 0).val < 250000 := (i 0).isLt
  have hi1 : (i 1).val < 16 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 16 ≤ (i 1).val ∧ (i 1).val < win1_4.index t (1 : Fin 2) * 16 + 16; omega

/-- THE OUTPUT ARRAY after the region: the hidden layer of the arrays the region finds. -/
theorem final (c : Dev nD) : (dat1 V c).arrAt 4 cfg1.N = hidden (V c main_v27) (V c main_v16) (V c main_arg2) (V c main_v28) :=
  (dat1 V c).arrAt_eq_of_cover 4 (hidden (V c main_v27) (V c main_v16) (V c main_arg2) (V c main_v28))
    (fun t _ => flushed_eq V c t) cover

end Cert.KernelIdeal.HiddenLayer

end
-- ==== Proof.Transform2.lean ====
/-
  THE SECOND TRANSFORM WITH ITS SOURCE-SIDE SCALING (the third pipelined region): whatever arrays the region finds — a
  hidden layer `h` of width 16, the one-column normalisation `d` and a weight matrix `w` — it leaves in its output array,
  at node `n` and output feature `q`,      (∑ⱼ h[n, j] · w[j, q]) · d[n, 0].

  The region walks the 250000 nodes in 25 blocks of 10000 rows; the weight matrix is one whole block. At a grid point the
  body multiplies its block of the hidden layer by the weights (into a zero accumulator: the plain sum over `j`; the
  change of float format before the product is the identity on extended reals) and scales each row by the
  normalisation column's entry (`block_apply`). The row windows move together (`idx_facts`), so what point `t` writes
  back is block `t` of ONE function of the whole arrays (`flushed_eq`), and the 25 blocks cover the output (`cover`).
-/
import proofs.«178559_j463856468564_2_alg».proof.Proof.Gen.KernelIdeal.Frame
import Idealize.ShloMosaic.Lib.Pipeline.Value
import Idealize.ShloMosaic.Lib.ValueIdx
import Idealize.ShloMosaic.Lib.ValueLayout
import proofs.«178559_j463856468564_2_alg».proof.Proof.LibColumns
import proofs.«178559_j463856468564_2_alg».proof.Proof.LibRowOps

noncomputable section

open scoped BigOperators

namespace Cert.KernelIdeal.Transform2

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The transformed and scaled row at node `n`, output feature `q`, from the whole arrays. -/
def unit (h : S250000x16.Idx → EReal) (d : S250000x1.Idx → EReal) (w : S16x7.Idx → EReal)
    (n : Fin 250000) (q : Fin 7) : EReal :=
  (∑ j : Fin 16, h (ix2 n j) * w (ix2 j q)) * d (ix2 n (0 : Fin 1))

/-- The same as one function of the whole arrays. -/
def prescaled (h : S250000x16.Idx → EReal) (d : S250000x1.Idx → EReal) (w : S16x7.Idx → EReal) : S250000x7.Idx → EReal :=
  fun i => unit h d w ⟨(i 0).val, (i 0).isLt⟩ ⟨(i 1).val, (i 1).isLt⟩

/-- The unit written over any indices that are the node's row, the weight column and the normalisation's entry. -/
theorem unit_congr (h : S250000x16.Idx → EReal) (d : S250000x1.Idx → EReal) (w : S16x7.Idx → EReal)
    (n : Fin 250000) (q : Fin 7) (ih : Fin 16 → S250000x16.Idx) (id : S250000x1.Idx) (iw : Fin 16 → S16x7.Idx)
    (hh : ∀ j, ih j = ix2 n j) (hd : id = ix2 n (0 : Fin 1)) (hw : ∀ j, iw j = ix2 j q) :
    (∑ j : Fin 16, h (ih j) * w (iw j)) * d id = unit h d w n q := by
  unfold unit
  simp only [hh, hd, hw]

/-- The body on one block. -/
theorem block_apply (x0 : Vec Ideal S10000x16 .f32) (x1 : Vec Ideal S16x7 .f32) (x2 : Vec Ideal S10000x1 .f32)
    (p : Fin 10000) (q : Fin 7) :
    k2_pay1 x0 x1 x2 (ix2 p q) = (∑ j : Fin 16, x0 (ix2 p j) * x1 (ix2 j q)) * x2 (ix2 p (0 : Fin 1)) := by
  unfold k2_pay1
  rw [mulf_apply]
  refine congrArg₂ (· * ·) ?_ ?_
  · refine (RowOps.matmul_zero_plain_apply dot_S10000x16_S16x7_S10000x7_1_0_0_1_n_n ⟨_, rfl⟩ none _ _ p q).trans ?_
    refine Finset.sum_congr rfl fun j _ => ?_
    rw [truncf_apply, truncf_apply, shapeCast_self]
  · rw [broadcastTo_a1_ab_apply, shapeCast_self]

/-- The printed index maps over the grid: the row windows' blocks move together down the rows, the weight window stays
    at block (0, 0). -/
theorem idx_facts : ∀ t : Fin cfg2.N, win2_0.index t (0 : Fin 2) = win2_3.index t (0 : Fin 2)
    ∧ win2_0.index t (1 : Fin 2) = 0 ∧ win2_1.index t (0 : Fin 2) = win2_3.index t (0 : Fin 2)
    ∧ win2_1.index t (1 : Fin 2) = 0 ∧ win2_2.index t (0 : Fin 2) = 0 ∧ win2_2.index t (1 : Fin 2) = 0
    ∧ win2_3.index t (1 : Fin 2) = 0 ∧ win2_3.index t (0 : Fin 2) < 25 :=
  (by decide +kernel : ∀ t : Fin grid2.N, _)

/-- Every row block is some point's. -/
theorem idx_onto : ∀ q : Fin 25, ∃ t : Fin cfg2.N, win2_3.index t = ![q.val, 0] :=
  (by decide +kernel : ∀ q : Fin 25, ∃ t : Fin grid2.N, win2_3.index t = ![q.val, 0])

variable (V : (c : Dev nD) → (b : Ref sig .tc) → Buf (Elt Ideal) ((c : Thread nD τ).loc b))

/-- WHAT POINT `t` WRITES BACK is block `t` of the transformed and scaled rows of the arrays the region finds. -/
theorem flushed_eq (c : Dev nD) (t : Fin cfg2.N) :
    (dat2 V c).flushed 3 t = ((cfg2.win 3).blk t).view.read (Elt Ideal)
      (prescaled (V c main_v29) (V c main_v16) (V c main_arg4)) := by
  show (cfg2.win 3).cut (grid2.coords t) ((dat2 V c).after 3 t) = _
  rw [after2_3]
  unfold out2_3
  rw [View.canon_unit_zero hz]
  simp only [View.ld_unit_zero (S := S10000x16) hz, View.ld_unit_zero (S := S10000x1) hz,
    View.ld_unit_zero (S := S16x7) hz]
  obtain ⟨e0, e1, e2, e3, e4, e5, e6, e7⟩ := idx_facts t
  funext y
  obtain ⟨p, q, rfl⟩ : ∃ (p : Fin 10000) (q : Fin 7), y = ix2 p q := ⟨y 0, y 1, eq_ix2 y⟩
  refine (block_apply _ _ _ p q).trans ?_
  have hh : ∀ (j : Fin 16), ((cfg2.win 0).blk t).view.emb (ix2 p j)
      = ix2 (⟨(((cfg2.win 3).blk t).view.emb (ix2 p q) 0).val, (((cfg2.win 3).blk t).view.emb (ix2 p q) 0).isLt⟩ : Fin 250000) j := by
    intro j; funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 16 + 1 * j.val = j.val; omega
  have hd : ((cfg2.win 1).blk t).view.emb (ix2 p (0 : Fin 1))
      = ix2 (⟨(((cfg2.win 3).blk t).view.emb (ix2 p q) 0).val, (((cfg2.win 3).blk t).view.emb (ix2 p q) 0).isLt⟩ : Fin 250000) (0 : Fin 1) := by
    funext a; apply Fin.ext
    match a with
    | ⟨0, _⟩ => show win2_1.index t (0 : Fin 2) * 10000 + 1 * p.val = win2_3.index t (0 : Fin 2) * 10000 + 1 * p.val; omega
    | ⟨1, _⟩ => show win2_1.index t (1 : Fin 2) * 1 + 1 * 0 = 0; omega
  have hw : ∀ (j : Fin 16), ((cfg2.win 2).blk t).view.emb (ix2 j q)
      = ix2 j (⟨(((cfg2.win 3).blk t).view.emb (ix2 p q) 1).val, (((cfg2.win 3).blk t).view.emb (ix2 p q) 1).isLt⟩ : Fin 7) := by
    intro j; funext a; apply Fin.ext
    match a with
    | ⟨0, _⟩ => show win2_2.index t (0 : Fin 2) * 16 + 1 * j.val = j.val; omega
    | ⟨1, _⟩ => show win2_2.index t (1 : Fin 2) * 7 + 1 * q.val = win2_3.index t (1 : Fin 2) * 7 + 1 * q.val; omega
  exact unit_congr (V c main_v29) (V c main_v16) (V c main_arg4)
    ⟨(((cfg2.win 3).blk t).view.emb (ix2 p q) 0).val, (((cfg2.win 3).blk t).view.emb (ix2 p q) 0).isLt⟩
    ⟨(((cfg2.win 3).blk t).view.emb (ix2 p q) 1).val, (((cfg2.win 3).blk t).view.emb (ix2 p q) 1).isLt⟩
    (fun j => ((cfg2.win 0).blk t).view.emb (ix2 p j)) (((cfg2.win 1).blk t).view.emb (ix2 p (0 : Fin 1)))
    (fun j => ((cfg2.win 2).blk t).view.emb (ix2 j q)) hh hd hw

/-- An index of the output is in point `t`'s block iff each coordinate is in the block's range on its axis. -/
theorem mem_blk (t : Fin cfg2.N) (i : S250000x7.Idx) :
    i ∈ ((cfg2.win 3).blk t).view.set ↔ ∀ a : Fin 2, win2_3.index t a * S10000x7.size a ≤ (i a).val ∧ (i a).val < win2_3.index t a * S10000x7.size a + S10000x7.size a := by
  show i ∈ ((View.whole main_v30).slice (win2_3.rect t)).set ↔ _
  rw [View.set_slice_whole, Rect.mem_set_unit]
  exact Iff.rfl

/-- The 25 blocks cover the output: row `r` is in block `r / 10000`. -/
theorem cover (i : S250000x7.Idx) : ∃ t : Fin cfg2.N, (cfg2.win 3).flush t = true ∧ i ∈ ((cfg2.win 3).blk t).view.set := by
  have hi0 : (i 0).val < 250000 := (i 0).isLt
  have hi1 : (i 1).val < 7 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 7 ≤ (i 1).val ∧ (i 1).val < win2_3.index t (1 : Fin 2) * 7 + 7; omega

/-- THE OUTPUT ARRAY after the region. -/
theorem final (c : Dev nD) : (dat2 V c).arrAt 3 cfg2.N = prescaled (V c main_v29) (V c main_v16) (V c main_arg4) :=
  (dat2 V c).arrAt_eq_of_cover 3 (prescaled (V c main_v29) (V c main_v16) (V c main_arg4))
    (fun t _ => flushed_eq V c t) cover

end Cert.KernelIdeal.Transform2

end
-- ==== Proof.TargetScale.lean ====
/-
  THE TARGET-SIDE SCALING AND THE BIAS (the fourth pipelined region): whatever arrays the region finds — an aggregate `a`
  of width 7, the one-column normalisation `d` and a one-row bias `b` — it leaves in its output array, at node `n` and
  output feature `q`,      a[n, q] · d[n, 0] + b[0, q].

  The region walks the 250000 nodes in 25 blocks of 10000 rows; the bias is one whole block. At a grid point the body
  scales its block of the aggregate by the normalisation column and adds the bias row (`block_apply`). The row windows
  move together (`idx_facts`), so what point `t` writes back is block `t` of ONE function of the whole arrays
  (`flushed_eq`), and the 25 blocks cover the output (`cover`).
-/
import proofs.«178559_j463856468564_2_alg».proof.Proof.Gen.KernelIdeal.Frame
import Idealize.ShloMosaic.Lib.Pipeline.Value
import Idealize.ShloMosaic.Lib.ValueIdx
import Idealize.ShloMosaic.Lib.ValueLayout
import proofs.«178559_j463856468564_2_alg».proof.Proof.LibColumns

noncomputable section

namespace Cert.KernelIdeal.TargetScale

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The scaled aggregate plus the bias at node `n`, output feature `q`, from the whole arrays. -/
def unit (a : S250000x7.Idx → EReal) (d : S250000x1.Idx → EReal) (b : S1x7.Idx → EReal)
    (n : Fin 250000) (q : Fin 7) : EReal :=
  a (ix2 n q) * d (ix2 n (0 : Fin 1)) + b (ix2 (0 : Fin 1) q)

/-- The same as one function of the whole arrays. -/
def postscaled (a : S250000x7.Idx → EReal) (d : S250000x1.Idx → EReal) (b : S1x7.Idx → EReal) : S250000x7.Idx → EReal :=
  fun i => unit a d b ⟨(i 0).val, (i 0).isLt⟩ ⟨(i 1).val, (i 1).isLt⟩

/-- The unit written over any indices that are the aggregate's entry, the normalisation's entry and the bias entry. -/
theorem unit_congr (a : S250000x7.Idx → EReal) (d : S250000x1.Idx → EReal) (b : S1x7.Idx → EReal)
    (n : Fin 250000) (q : Fin 7) (ia : S250000x7.Idx) (id : S250000x1.Idx) (ib : S1x7.Idx)
    (ha : ia = ix2 n q) (hd : id = ix2 n (0 : Fin 1)) (hb : ib = ix2 (0 : Fin 1) q) :
    a ia * d id + b ib = unit a d b n q := by
  unfold unit
  rw [ha, hd, hb]

/-- The body on one block. -/
theorem block_apply (x0 : Vec Ideal S10000x7 .f32) (x1 : Vec Ideal S10000x1 .f32) (x2 : Vec Ideal S1x7 .f32)
    (p : Fin 10000) (q : Fin 7) :
    k3_pay1 x0 x1 x2 (ix2 p q) = x0 (ix2 p q) * x1 (ix2 p (0 : Fin 1)) + x2 (ix2 (0 : Fin 1) q) := by
  unfold k3_pay1
  rw [addf_apply, mulf_apply, shapeCast_self, broadcastTo_a1_ab_apply, shapeCast_self, broadcastTo_1b_ab_apply, shapeCast_self]

/-- The printed index maps over the grid: the row windows' blocks move together down the rows, the bias window stays
    at block (0, 0). -/
theorem idx_facts : ∀ t : Fin cfg3.N, win3_0.index t (0 : Fin 2) = win3_3.index t (0 : Fin 2)
    ∧ win3_0.index t (1 : Fin 2) = 0 ∧ win3_1.index t (0 : Fin 2) = win3_3.index t (0 : Fin 2)
    ∧ win3_1.index t (1 : Fin 2) = 0 ∧ win3_2.index t (0 : Fin 2) = 0 ∧ win3_2.index t (1 : Fin 2) = 0
    ∧ win3_3.index t (1 : Fin 2) = 0 ∧ win3_3.index t (0 : Fin 2) < 25 :=
  (by decide +kernel : ∀ t : Fin grid3.N, _)

/-- Every row block is some point's. -/
theorem idx_onto : ∀ q : Fin 25, ∃ t : Fin cfg3.N, win3_3.index t = ![q.val, 0] :=
  (by decide +kernel : ∀ q : Fin 25, ∃ t : Fin grid3.N, win3_3.index t = ![q.val, 0])

variable (V : (c : Dev nD) → (b : Ref sig .tc) → Buf (Elt Ideal) ((c : Thread nD τ).loc b))

/-- WHAT POINT `t` WRITES BACK is block `t` of the scaled aggregate plus the bias of the arrays the region finds. -/
theorem flushed_eq (c : Dev nD) (t : Fin cfg3.N) :
    (dat3 V c).flushed 3 t = ((cfg3.win 3).blk t).view.read (Elt Ideal)
      (postscaled (V c main_v40) (V c main_v16) (V c main_v41)) := by
  show (cfg3.win 3).cut (grid3.coords t) ((dat3 V c).after 3 t) = _
  rw [after3_3]
  unfold out3_3
  rw [View.canon_unit_zero hz]
  simp only [View.ld_unit_zero (S := S10000x7) hz, View.ld_unit_zero (S := S10000x1) hz,
    View.ld_unit_zero (S := S1x7) hz]
  obtain ⟨e0, e1, e2, e3, e4, e5, e6, e7⟩ := idx_facts t
  funext y
  obtain ⟨p, q, rfl⟩ : ∃ (p : Fin 10000) (q : Fin 7), y = ix2 p q := ⟨y 0, y 1, eq_ix2 y⟩
  refine (block_apply _ _ _ p q).trans ?_
  have ha : ((cfg3.win 0).blk t).view.emb (ix2 p q)
      = ix2 (⟨(((cfg3.win 3).blk t).view.emb (ix2 p q) 0).val, (((cfg3.win 3).blk t).view.emb (ix2 p q) 0).isLt⟩ : Fin 250000)
          (⟨(((cfg3.win 3).blk t).view.emb (ix2 p q) 1).val, (((cfg3.win 3).blk t).view.emb (ix2 p q) 1).isLt⟩ : Fin 7) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 7 + 1 * q.val = win3_3.index t (1 : Fin 2) * 7 + 1 * q.val; omega
  have hd : ((cfg3.win 1).blk t).view.emb (ix2 p (0 : Fin 1))
      = ix2 (⟨(((cfg3.win 3).blk t).view.emb (ix2 p q) 0).val, (((cfg3.win 3).blk t).view.emb (ix2 p q) 0).isLt⟩ : Fin 250000) (0 : Fin 1) := by
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 1 + 1 * 0 = 0; omega
  have hb : ((cfg3.win 2).blk t).view.emb (ix2 (0 : Fin 1) q)
      = ix2 (0 : Fin 1) (⟨(((cfg3.win 3).blk t).view.emb (ix2 p q) 1).val, (((cfg3.win 3).blk t).view.emb (ix2 p q) 1).isLt⟩ : Fin 7) := by
    funext a; apply Fin.ext
    match a with
    | ⟨0, _⟩ => show win3_2.index t (0 : Fin 2) * 1 + 1 * 0 = 0; omega
    | ⟨1, _⟩ => show win3_2.index t (1 : Fin 2) * 7 + 1 * q.val = win3_3.index t (1 : Fin 2) * 7 + 1 * q.val; omega
  exact unit_congr (V c main_v40) (V c main_v16) (V c main_v41)
    ⟨(((cfg3.win 3).blk t).view.emb (ix2 p q) 0).val, (((cfg3.win 3).blk t).view.emb (ix2 p q) 0).isLt⟩
    ⟨(((cfg3.win 3).blk t).view.emb (ix2 p q) 1).val, (((cfg3.win 3).blk t).view.emb (ix2 p q) 1).isLt⟩
    (((cfg3.win 0).blk t).view.emb (ix2 p q)) (((cfg3.win 1).blk t).view.emb (ix2 p (0 : Fin 1)))
    (((cfg3.win 2).blk t).view.emb (ix2 (0 : Fin 1) q)) ha hd hb

/-- An index of the output is in point `t`'s block iff each coordinate is in the block's range on its axis. -/
theorem mem_blk (t : Fin cfg3.N) (i : S250000x7.Idx) :
    i ∈ ((cfg3.win 3).blk t).view.set ↔ ∀ a : Fin 2, win3_3.index t a * S10000x7.size a ≤ (i a).val ∧ (i a).val < win3_3.index t a * S10000x7.size a + S10000x7.size a := by
  show i ∈ ((View.whole main_v42).slice (win3_3.rect t)).set ↔ _
  rw [View.set_slice_whole, Rect.mem_set_unit]
  exact Iff.rfl

/-- The 25 blocks cover the output: row `r` is in block `r / 10000`. -/
theorem cover (i : S250000x7.Idx) : ∃ t : Fin cfg3.N, (cfg3.win 3).flush t = true ∧ i ∈ ((cfg3.win 3).blk t).view.set := by
  have hi0 : (i 0).val < 250000 := (i 0).isLt
  have hi1 : (i 1).val < 7 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 7 ≤ (i 1).val ∧ (i 1).val < win3_3.index t (1 : Fin 2) * 7 + 7; omega

/-- THE OUTPUT ARRAY after the region. -/
theorem final (c : Dev nD) : (dat3 V c).arrAt 3 cfg3.N = postscaled (V c main_v40) (V c main_v16) (V c main_v41) :=
  (dat3 V c).arrAt_eq_of_cover 3 (postscaled (V c main_v40) (V c main_v16) (V c main_v41))
    (fun t _ => flushed_eq V c t) cover

end Cert.KernelIdeal.TargetScale

end
-- ==== Proof.KernelFormula.lean ====
/-
  THE KERNEL'S FOUR REGIONS AND TWO AGGREGATIONS, COMPOSED, ARE THE CONVOLUTION IN THE KERNEL'S ORDER.

  Take the node features `x`, the one-column normalisation `d`, the weights and the one-row biases as whole arrays. Scale
  the features (region 1), aggregate them over the edges (`g1`: at node `n` the sum over the edges landing on `n` of the
  scaled row of the edge's source), form the hidden layer (region 2), transform and scale it (region 3), aggregate again
  (`g2`), scale and add the bias (region 4). Read at node `n` and output feature `q` this is, term for term, the kernel's
  order of the two-layer convolution (`Cert.Gcn.outK`) over the graph the edge list spells: each region's function is one
  of that expression's layers, and the two aggregations are its two sums over the landing edges.
-/
import proofs.«178559_j463856468564_2_alg».proof.Proof.SourceScale
import proofs.«178559_j463856468564_2_alg».proof.Proof.HiddenLayer
import proofs.«178559_j463856468564_2_alg».proof.Proof.Transform2
import proofs.«178559_j463856468564_2_alg».proof.Proof.TargetScale
import proofs.«178559_j463856468564_2_alg».proof.Proof.Graph
import proofs.«178559_j463856468564_2_alg».proof.Proof.GcnAlgebra

noncomputable section

open scoped BigOperators

namespace Cert.KernelIdeal.Formula

open Cert.KernelIdeal Idealize.ShloMosaic Idealize.ShloMosaic.ValueIdx

theorem composed (x : S250000x3.Idx → EReal) (row col : IVec (⟨1, ![4250000]⟩ : Shape) 32) (d : S250000x1.Idx → EReal)
    (w1 : S3x16.Idx → EReal) (b1 : S1x16.Idx → EReal) (w2 : S16x7.Idx → EReal) (b2 : S1x7.Idx → EReal)
    (g1 : S250000x3.Idx → EReal)
    (hg1 : ∀ (n : Fin 250000) (k : Fin 3), g1 (ix2 n k)
      = ∑ e : Fin 4250000, if Graph.land col e n then SourceScale.scaled x d (ix2 (Graph.src row e) k) else 0)
    (g2 : S250000x7.Idx → EReal)
    (hg2 : ∀ (n : Fin 250000) (q : Fin 7), g2 (ix2 n q)
      = ∑ e : Fin 4250000, if Graph.land col e n then
          Transform2.prescaled (HiddenLayer.hidden g1 d w1 b1) d w2 (ix2 (Graph.src row e) q) else 0)
    (n : Fin 250000) (q : Fin 7) :
    TargetScale.postscaled g2 d b2 (ix2 n q)
      = Gcn.outK (Graph.land col) (Graph.src row) (fun n => d (ix2 n (0 : Fin 1))) (fun n k => x (ix2 n k))
          (fun k j => w1 (ix2 k j)) (fun j => b1 (ix2 (0 : Fin 1) j)) (fun j q => w2 (ix2 j q))
          (fun q => b2 (ix2 (0 : Fin 1) q)) n q := by
  have hsc : ∀ (s : Fin 250000) (k : Fin 3), SourceScale.scaled x d (ix2 s k) = x (ix2 s k) * d (ix2 s (0 : Fin 1)) :=
    fun s k => rfl
  have hH : ∀ (s : Fin 250000) (j : Fin 16), HiddenLayer.hidden g1 d w1 b1 (ix2 s j)
      = Gcn.hiddenK (Graph.land col) (Graph.src row) (fun n => d (ix2 n (0 : Fin 1))) (fun n k => x (ix2 n k))
          (fun k j => w1 (ix2 k j)) (fun j => b1 (ix2 (0 : Fin 1) j)) s j := by
    intro s j
    show HiddenLayer.unit g1 d w1 b1 s j = _
    rw [HiddenLayer.unit, Gcn.hiddenK]
    refine congrArg₂ max (congrArg₂ (· + ·) (Finset.sum_congr rfl fun k _ => ?_) rfl) rfl
    rw [hg1, Gcn.seg]
    refine congrArg₂ (· * ·) (congrArg₂ (· * ·) (Finset.sum_congr rfl fun e _ => ?_) rfl) rfl
    exact if_congr Iff.rfl (hsc _ _) rfl
  show TargetScale.unit g2 d b2 n q = _
  rw [TargetScale.unit, Gcn.outK, Gcn.seg, hg2]
  refine congrArg₂ (· + ·) (congrArg₂ (· * ·) (Finset.sum_congr rfl fun e _ => ?_) rfl) rfl
  refine if_congr Iff.rfl ?_ rfl
  show Transform2.unit (HiddenLayer.hidden g1 d w1 b1) d w2 (Graph.src row e) q = _
  rw [Transform2.unit]
  refine congrArg₂ (· * ·) (Finset.sum_congr rfl fun j _ => ?_) rfl
  rw [hH]

end Cert.KernelIdeal.Formula

end
-- ==== Proof.Aggregate.lean ====
/-
  The aggregation step of a graph convolution, read at an index.

  A node array `X` of `250000` rows and `C` columns is aggregated along `4250000` edges: first the rows of `X` are
  gathered through the edges' source words (each word read signed and clamped into the row range), giving one row per
  edge; then these rows are scatter-added, from zero, through the edges' target words (each word read signed, an edge
  whose word is not a row number being dropped). Read at `(n, q)` the result is the sum, over the edges whose target
  word is `n`, of the source node's entry in column `q` (`aggregate_apply`); the width `C` is arbitrary.

  Two companions. The source words are normalised before the gather — a negative word counts from the end — by an
  elementwise select, which at edge `e` is the scalar normalisation of the word (`wrap_apply`). The in-degree of a node
  is the same scatter-add, from zero, of a vector of ones: zero plus a finite sum of ones and zeros, a real number
  (`degree_real`).
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«178559_j463856468564_2_alg».proof.Proof.LibScatterRows
import proofs.«178559_j463856468564_2_alg».proof.Proof.LibScatterVec
import proofs.«178559_j463856468564_2_alg».proof.Proof.LibGatherRows
import proofs.«178559_j463856468564_2_alg».proof.Proof.LibRowOps
import proofs.«178559_j463856468564_2_alg».proof.Proof.NodeIndex
import proofs.«178559_j463856468564_2_alg».proof.Proof.Graph
import proofs.«178559_j463856468564_2_alg».proof.Proof.GcnAlgebra

noncomputable section

open scoped BigOperators

namespace Cert.Aggregate

open Idealize.ShloMosaic Idealize.ShloMosaic.ValueIdx

/-- A vector of `E` entries broadcast to a column `[E, 1]` along axis 0 reads, at `(e, 0)`, the vector at `e`. -/
theorem broadcast_col_apply {α : Type} {E : Nat}
    (hb1 : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ ![0] hb1 v (ix2 e (0 : Fin 1)) = v (ix1 e) := by
  refine broadcastInDim_apply ![0] hb1 v (ix2 e (0 : Fin 1)) (ix1 e) fun a => ?_
  match a with
  | ⟨0, _⟩ =>
    show e.val = if E = 1 then 0 else e.val
    split
    · have := e.isLt; omega
    · rfl

/-- The elementwise normalisation of the source words, read at edge `e`: the scalar normalisation of the word. -/
theorem wrap_apply (hbI : (⟨0, ![]⟩ : Shape).BroadcastsInDim ⟨1, ![4250000]⟩ (![] : Fin 0 → Fin 1))
    (row : IVec (⟨1, ![4250000]⟩ : Shape) 32) (e : Fin 4250000) :
    select (cmpi .slt row (broadcastInDim ⟨1, ![4250000]⟩ ![] hbI (constantI ⟨0, ![]⟩ 32 0#32)))
        (addi row (broadcastInDim ⟨1, ![4250000]⟩ ![] hbI (constantI ⟨0, ![]⟩ 32 250000#32))) row (ix1 e)
      = Cert.NodeIndex.wrap (row (ix1 e)) := by
  show Scalar.select
      (IntOp.cmpi .slt (row (ix1 e)) (broadcastInDim ⟨1, ![4250000]⟩ ![] hbI (constantI ⟨0, ![]⟩ 32 0#32) (ix1 e)))
      (IntOp.addi (row (ix1 e)) (broadcastInDim ⟨1, ![4250000]⟩ ![] hbI (constantI ⟨0, ![]⟩ 32 250000#32) (ix1 e)))
      (row (ix1 e)) = _
  rw [RowOps.broadcastInDim_scalar_apply, RowOps.broadcastInDim_scalar_apply]
  rfl

/-- Gather the rows of `X` through the source words, scatter-add them from zero through the target words: at `(n, q)`
    the sum, over the edges whose target word is `n`, of the source row's entry in column `q`. -/
theorem aggregate_apply {C : Nat} (ds : ScatterDims (⟨2, ![250000, C]⟩ : Shape) ⟨2, ![4250000, 1]⟩ ⟨2, ![4250000, C]⟩)
    (hs1 : ds.updateWindowDims = [1]) (hs2 : ds.insertedWindowDims = [0]) (hs3 : ds.scatterDimsToOperandDims = [0])
    (hs4 : ds.indexVectorDim = 1)
    (dg : GatherDims (⟨2, ![250000, C]⟩ : Shape) ⟨2, ![4250000, 1]⟩ ⟨2, ![4250000, C]⟩)
    (hg1 : dg.offsetDims = [1]) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1, C])
    (hb0 : (⟨0, ![]⟩ : Shape).BroadcastsInDim ⟨2, ![250000, C]⟩ (![] : Fin 0 → Fin 2))
    (hb1 : (⟨1, ![4250000]⟩ : Shape).BroadcastsInDim ⟨2, ![4250000, 1]⟩ (![0] : Fin 1 → Fin 2))
    (X : (⟨2, ![250000, C]⟩ : Shape).Idx → EReal) (idxS idxT : IVec (⟨1, ![4250000]⟩ : Shape) 32)
    (n : Fin 250000) (q : Fin C) :
    Host.scatterAdd (F := Ideal) (φ := .f32) ds
        (broadcastInDim ⟨2, ![250000, C]⟩ ![] hb0 (constant (F := Ideal) ⟨0, ![]⟩ .f32 0x00000000#32))
        (broadcastInDim ⟨2, ![4250000, 1]⟩ ![0] hb1 idxT)
        (Host.gather dg X (broadcastInDim ⟨2, ![4250000, 1]⟩ ![0] hb1 idxS)) (ix2 n q)
      = ∑ e : Fin 4250000, if (idxT (ix1 e)).toInt = (n.val : Int)
          then X (ix2 (GatherRows.clampRow 250000 (by decide) (idxS (ix1 e))) q) else 0 := by
  rw [ScatterRows.scatterAdd_rows_apply' ds hs1 hs2 hs3 hs4, RowOps.broadcastInDim_scalar_apply]
  show Ideal.ofBits .f32 0x00000000#32 + _ = _
  rw [Ideal.ofBits_zero_f32, zero_add]
  refine Finset.sum_congr rfl fun e _ => ?_
  rw [broadcast_col_apply hb1 idxT e,
    GatherRows.gather_rows_apply' (by decide) dg hg1 hg2 hg3 hg4 hg5 hg6 hg7 X _ e q,
    broadcast_col_apply hb1 idxS e]

/-- The word `0x3F800000` denotes the real number 1. -/
theorem one_eq : Ideal.ofBits .f32 0x3F800000#32 = ((1 : ℝ) : EReal) := by
  simp [Ideal.ofBits, Ideal.ieee, -EReal.coe_mul]; norm_num

/-- The in-degree of node `n` — the scatter-add, from zero, of a vector of ones through the target words — is a real
    number: zero plus a finite sum of ones and zeros. -/
theorem degree_real (dv : ScatterDims (⟨1, ![250000]⟩ : Shape) ⟨2, ![4250000, 1]⟩ ⟨1, ![4250000]⟩)
    (h1 : dv.updateWindowDims = []) (h2 : dv.insertedWindowDims = [0]) (h3 : dv.scatterDimsToOperandDims = [0])
    (h4 : dv.indexVectorDim = 1)
    (hb0 : (⟨0, ![]⟩ : Shape).BroadcastsInDim ⟨1, ![250000]⟩ (![] : Fin 0 → Fin 1))
    (hbE : (⟨0, ![]⟩ : Shape).BroadcastsInDim ⟨1, ![4250000]⟩ (![] : Fin 0 → Fin 1))
    (hb1 : (⟨1, ![4250000]⟩ : Shape).BroadcastsInDim ⟨2, ![4250000, 1]⟩ (![0] : Fin 1 → Fin 2))
    (idxT : IVec (⟨1, ![4250000]⟩ : Shape) 32) (n : Fin 250000) :
    ∃ r : ℝ, Host.scatterAdd (F := Ideal) (φ := .f32) dv
        (broadcastInDim ⟨1, ![250000]⟩ ![] hb0 (constant (F := Ideal) ⟨0, ![]⟩ .f32 0x00000000#32))
        (broadcastInDim ⟨2, ![4250000, 1]⟩ ![0] hb1 idxT)
        (broadcastInDim ⟨1, ![4250000]⟩ ![] hbE (constant (F := Ideal) ⟨0, ![]⟩ .f32 0x3F800000#32)) (ix1 n)
      = (r : EReal) := by
  refine ⟨∑ e : Fin 4250000, if (idxT (ix1 e)).toInt = (n.val : Int) then (1 : ℝ) else 0, ?_⟩
  rw [ScatterVec.scatterAdd_vec_apply' dv h1 h2 h3 h4, RowOps.broadcastInDim_scalar_apply]
  show Ideal.ofBits .f32 0x00000000#32 + _ = _
  rw [Ideal.ofBits_zero_f32, zero_add, Cert.Gcn.coe_sum]
  refine Finset.sum_congr rfl fun e _ => ?_
  rw [broadcast_col_apply hb1 idxT e, RowOps.broadcastInDim_scalar_apply]
  show (if _ then Ideal.ofBits .f32 0x3F800000#32 else 0) = _
  rw [one_eq, Cert.Gcn.coe_ite]

end Cert.Aggregate

end
-- ==== Proof.KernelValue.lean ====
/-
  THE IDEALIZED KERNEL'S RESULT AS A FUNCTION OF ITS ARGUMENTS.

  The buffer contents at the last segment boundary are read back through the nine segments. Each pipelined region leaves
  in its output array one function of the arrays it finds (the four region modules); each of the two stretches of host
  operations between regions gathers the rows of the previous region's output through the edges' source words and
  scatter-adds them through the target words (`rowsSum3`, `rowsSum7`: at node `n` the sum, over the edges landing on
  `n`, of the source node's row — the aggregation lemma), and reshapes a bias vector to one row. The edge lists, the
  normalisation column and the arguments themselves are left alone by every later segment (the base module). Composed,
  the result at node `n` and output feature `q` is the two-layer convolution in the kernel's order (`kernel_out`).
-/
import proofs.«178559_j463856468564_2_alg».proof.Proof.KernelBase
import proofs.«178559_j463856468564_2_alg».proof.Proof.KernelFormula
import proofs.«178559_j463856468564_2_alg».proof.Proof.Aggregate
import Idealize.ShloMosaic.Lib.ValueLayout

noncomputable section

open scoped BigOperators

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

/-- Gather the rows of a width-3 node array through the normalised source words, scatter-add them through the target
    words into zeros: the first stretch between regions, as the program spells it. -/
def rowsSum3 (x : S250000x3.Idx → EReal) (row col : IVec S4250000 32) : S250000x3.Idx → EReal :=
  Host.scatterAdd (F := Ideal) (φ := .f32) scatter_S250000x3_S4250000x1_S4250000x3_1_0_0_1
    (broadcastInDim S250000x3 ![] bcast_S_S250000x3 (constant (F := Ideal) S_ .f32 0x00000000#32))
    (broadcastInDim S4250000x1 ![0] bcast_S4250000_S4250000x1_0 col)
    (Host.gather gather_S250000x3_S4250000x1_S4250000x3_1_0_n_n_0_1_13 x
      (broadcastInDim S4250000x1 ![0] bcast_S4250000_S4250000x1_0
        (select (cmpi .slt row (broadcastInDim S4250000 ![] bcast_S_S4250000 (constantI S_ 32 0#32)))
          (addi row (broadcastInDim S4250000 ![] bcast_S_S4250000 (constantI S_ 32 250000#32))) row)))

/-- The same at width 7: the second stretch between regions. -/
def rowsSum7 (x : S250000x7.Idx → EReal) (row col : IVec S4250000 32) : S250000x7.Idx → EReal :=
  Host.scatterAdd (F := Ideal) (φ := .f32) scatter_S250000x7_S4250000x1_S4250000x7_1_0_0_1
    (broadcastInDim S250000x7 ![] bcast_S_S250000x7 (constant (F := Ideal) S_ .f32 0x00000000#32))
    (broadcastInDim S4250000x1 ![0] bcast_S4250000_S4250000x1_0 col)
    (Host.gather gather_S250000x7_S4250000x1_S4250000x7_1_0_n_n_0_1_17 x
      (broadcastInDim S4250000x1 ![0] bcast_S4250000_S4250000x1_0
        (select (cmpi .slt row (broadcastInDim S4250000 ![] bcast_S_S4250000 (constantI S_ 32 0#32)))
          (addi row (broadcastInDim S4250000 ![] bcast_S_S4250000 (constantI S_ 32 250000#32))) row)))

/-- At node `n`, feature `k`: the sum over the edges landing on `n` of the source node's entry. -/
theorem rowsSum3_apply (x : S250000x3.Idx → EReal) (row col : IVec S4250000 32) (n : Fin 250000) (k : Fin 3) :
    rowsSum3 x row col (ix2 n k) = ∑ e : Fin 4250000, if Graph.land col e n then x (ix2 (Graph.src row e) k) else 0 := by
  unfold rowsSum3
  refine (Aggregate.aggregate_apply scatter_S250000x3_S4250000x1_S4250000x3_1_0_0_1 rfl rfl rfl rfl
    gather_S250000x3_S4250000x1_S4250000x3_1_0_n_n_0_1_13 rfl rfl rfl rfl rfl rfl rfl _ _ x _ col n k).trans ?_
  refine Finset.sum_congr rfl fun e _ => ?_
  refine if_congr Iff.rfl ?_ rfl
  rw [Aggregate.wrap_apply]
  rfl

theorem rowsSum7_apply (x : S250000x7.Idx → EReal) (row col : IVec S4250000 32) (n : Fin 250000) (q : Fin 7) :
    rowsSum7 x row col (ix2 n q) = ∑ e : Fin 4250000, if Graph.land col e n then x (ix2 (Graph.src row e) q) else 0 := by
  unfold rowsSum7
  refine (Aggregate.aggregate_apply scatter_S250000x7_S4250000x1_S4250000x7_1_0_0_1 rfl rfl rfl rfl
    gather_S250000x7_S4250000x1_S4250000x7_1_0_n_n_0_1_17 rfl rfl rfl rfl rfl rfl rfl _ _ x _ col n q).trans ?_
  refine Finset.sum_congr rfl fun e _ => ?_
  refine if_congr Iff.rfl ?_ rfl
  rw [Aggregate.wrap_apply]
  rfl

variable (m : (ℓ : Loc nD τ sig) → Buf (Elt Ideal) ℓ) (ρ : Dev nD → PrngReg) (c : Dev nD)

/-- The edge-index argument. -/
abbrev ei : IVec S2x4000000 32 := m ((c : Thread nD τ).loc main_arg1)

/-- After the first region: the scaled features. -/
theorem W4_v17 : (W4 m ρ c (Proc.devRef .tc main_v17) : S250000x3.Idx → EReal)
    = SourceScale.scaled (m ((c : Thread nD τ).loc main_arg0)) (Base.dis2K (ei m c)) := by
  refine (W4_arr m ρ c 2).trans ?_
  rw [SourceScale.final]
  show SourceScale.scaled (W3 m ρ c (Proc.devRef .tc main_arg0)) (W3 m ρ c (Proc.devRef .tc main_v16)) = _
  rw [Base.W3_arg0, Base.W3_v16]

/-- After the first stretch between regions: the aggregate of the scaled features … -/
theorem W5_v27 : (W5 m ρ c (Proc.devRef .tc main_v27) : S250000x3.Idx → EReal)
    = rowsSum3 (SourceScale.scaled (m ((c : Thread nD τ).loc main_arg0)) (Base.dis2K (ei m c)))
        (Base.rowK (ei m c)) (Base.colK (ei m c)) := by
  rw [← W4_v17 m ρ c, ← Base.W4_v3 m ρ c, ← Base.W4_v6 m ρ c]
  show StableHlo.after (hostOps1 (F := Ideal)) (W4 m ρ c) (Proc.devRef .tc main_v27) = _
  after_results <;> rfl

/-- … and the first bias as one row. -/
theorem W5_v28 : (W5 m ρ c (Proc.devRef .tc main_v28) : S1x16.Idx → EReal)
    = shapeCast S1x16 (m ((c : Thread nD τ).loc main_arg3)) shapeCasts_S16_S1x16 := by
  rw [← Base.W4_arg3 m ρ c]
  show StableHlo.after (hostOps1 (F := Ideal)) (W4 m ρ c) (Proc.devRef .tc main_v28) = _
  after_results <;> rfl

/-- After the second region: the hidden layer. -/
theorem W6_v29 : (W6 m ρ c (Proc.devRef .tc main_v29) : S250000x16.Idx → EReal)
    = HiddenLayer.hidden (W5 m ρ c (Proc.devRef .tc main_v27)) (Base.dis2K (ei m c)) (m ((c : Thread nD τ).loc main_arg2))
        (shapeCast S1x16 (m ((c : Thread nD τ).loc main_arg3)) shapeCasts_S16_S1x16) := by
  refine (W6_arr m ρ c 4).trans ?_
  rw [HiddenLayer.final]
  show HiddenLayer.hidden (W5 m ρ c (Proc.devRef .tc main_v27)) (W5 m ρ c (Proc.devRef .tc main_v16))
    (W5 m ρ c (Proc.devRef .tc main_arg2)) (W5 m ρ c (Proc.devRef .tc main_v28)) = _
  rw [Base.W5_v16, Base.W5_arg2, W5_v28]

/-- After the third region: the hidden layer transformed and scaled. -/
theorem W7_v30 : (W7 m ρ c (Proc.devRef .tc main_v30) : S250000x7.Idx → EReal)
    = Transform2.prescaled (W6 m ρ c (Proc.devRef .tc main_v29)) (Base.dis2K (ei m c)) (m ((c : Thread nD τ).loc main_arg4)) := by
  refine (W7_arr m ρ c 3).trans ?_
  rw [Transform2.final]
  show Transform2.prescaled (W6 m ρ c (Proc.devRef .tc main_v29)) (W6 m ρ c (Proc.devRef .tc main_v16))
    (W6 m ρ c (Proc.devRef .tc main_arg4)) = _
  rw [Base.W6_v16, Base.W6_arg4]

/-- After the second stretch between regions: the aggregate of that … -/
theorem W8_v40 : (W8 m ρ c (Proc.devRef .tc main_v40) : S250000x7.Idx → EReal)
    = rowsSum7 (W7 m ρ c (Proc.devRef .tc main_v30)) (Base.rowK (ei m c)) (Base.colK (ei m c)) := by
  rw [← Base.W7_v3 m ρ c, ← Base.W7_v6 m ρ c]
  show StableHlo.after (hostOps3 (F := Ideal)) (W7 m ρ c) (Proc.devRef .tc main_v40) = _
  after_results <;> rfl

/-- … and the second bias as one row. -/
theorem W8_v41 : (W8 m ρ c (Proc.devRef .tc main_v41) : S1x7.Idx → EReal)
    = shapeCast S1x7 (m ((c : Thread nD τ).loc main_arg5)) shapeCasts_S7_S1x7 := by
  rw [← Base.W7_arg5 m ρ c]
  show StableHlo.after (hostOps3 (F := Ideal)) (W7 m ρ c) (Proc.devRef .tc main_v41) = _
  after_results <;> rfl

/-- After the fourth region: the result. -/
theorem W9_v42 : (W9 m ρ c (Proc.devRef .tc main_v42) : S250000x7.Idx → EReal)
    = TargetScale.postscaled (W8 m ρ c (Proc.devRef .tc main_v40)) (Base.dis2K (ei m c))
        (shapeCast S1x7 (m ((c : Thread nD τ).loc main_arg5)) shapeCasts_S7_S1x7) := by
  refine (W9_arr m ρ c 3).trans ?_
  rw [TargetScale.final]
  show TargetScale.postscaled (W8 m ρ c (Proc.devRef .tc main_v40)) (W8 m ρ c (Proc.devRef .tc main_v16))
    (W8 m ρ c (Proc.devRef .tc main_v41)) = _
  rw [Base.W8_v16, W8_v41]

/-- THE RESULT at node `n`, output feature `q`: the two-layer convolution in the kernel's order, over the graph the edge
    list spells, of the arguments. -/
theorem kernel_out (n : Fin 250000) (q : Fin 7) :
    (W9 m ρ c (Proc.devRef .tc main_v42) : S250000x7.Idx → EReal) (ix2 n q)
      = Gcn.outK (Graph.land (Base.colK (ei m c))) (Graph.src (Base.rowK (ei m c)))
          (fun n => Base.dis2K (ei m c) (ix2 n (0 : Fin 1)))
          (fun n k => (m ((c : Thread nD τ).loc main_arg0) : S250000x3.Idx → EReal) (ix2 n k))
          (fun k j => (m ((c : Thread nD τ).loc main_arg2) : S3x16.Idx → EReal) (ix2 k j))
          (fun j => (m ((c : Thread nD τ).loc main_arg3) : S16.Idx → EReal) (ix1 j))
          (fun j q => (m ((c : Thread nD τ).loc main_arg4) : S16x7.Idx → EReal) (ix2 j q))
          (fun q => (m ((c : Thread nD τ).loc main_arg5) : S7.Idx → EReal) (ix1 q)) n q := by
  rw [W9_v42]
  refine (Formula.composed (m ((c : Thread nD τ).loc main_arg0)) (Base.rowK (ei m c)) (Base.colK (ei m c))
    (Base.dis2K (ei m c)) (m ((c : Thread nD τ).loc main_arg2))
    (shapeCast S1x16 (m ((c : Thread nD τ).loc main_arg3)) shapeCasts_S16_S1x16) (m ((c : Thread nD τ).loc main_arg4))
    (shapeCast S1x7 (m ((c : Thread nD τ).loc main_arg5)) shapeCasts_S7_S1x7)
    (W5 m ρ c (Proc.devRef .tc main_v27)) (fun n k => by rw [W5_v27, rowsSum3_apply])
    (W8 m ρ c (Proc.devRef .tc main_v40)) (fun n q => by rw [W8_v40, rowsSum7_apply, W7_v30, W6_v29]) n q).trans ?_
  simp only [shapeCast_a_1a_apply]

end Cert.KernelIdeal.Chain

end
-- ==== Proof.FiniteInputs.lean ====
/-
  Every float input is a real number.

  The precondition of the certificate is the conjunction, over the five float arguments `a`, of
  "every entry of `|a|` is below `+∞`": each conjunct is the reduction by `and`, over all axes, of the
  entrywise comparison `|a| < c`, where `c` is the constant whose word is `0x7F800000`, broadcast to the
  shape of `a`. At the ideal instance a float is an extended real, the constant is `⊤`, and `|x|` is
  `max x (-x)`. So the precondition being 1 says that `max x (-x) < ⊤` at every entry `x` of every float
  argument. An extended real is `⊥`, `⊤` or a real number: at `⊥` and at `⊤` the maximum `max x (-x)`
  is `⊤`, which is not below `⊤`; so every entry is a real number.
-/
import proofs.«178559_j463856468564_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

namespace Cert.FiniteInputs

open Idealize.ShloMosaic Cert.Pre_finite_inputs

/-- The word `0x7F800000` denotes `+∞`. -/
theorem inf_eq_top : Ideal.ofBits .f32 0x7F800000#32 = (⊤ : EReal) := by
  simp [Ideal.ofBits, Ideal.ieee]

/-- An extended real whose absolute value `max x (-x)` compares below `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_eq_top] at h
  induction x using EReal.rec with
  -- at `⊥` and at `⊤` the maximum `max x (-x)` is `⊤`, and `⊤ < ⊤` is false: the comparison is 0, not 1
  | bot => exact absurd h (by decide)
  | coe r => exact ⟨r, rfl⟩
  | top => exact absurd h (by decide)

/-- A shape of rank 0 has one index. -/
instance subsingleton_idx : Subsingleton S_.Idx := ⟨fun a b => funext fun d => d.elim0⟩

/-- One conjunct of the precondition, for an argument `a` of any shape `s`: if the reduction by `and` over all
    axes of the entrywise comparison `|a| < +∞` (the constant broadcast to `s`) is 1, every entry of `a` is real. -/
theorem real_of_all {s : Shape} {axes : List (Fin s.rank)} (a : FVec Ideal s .f32)
    (hb : S_.BroadcastsInDim s (![] : Fin 0 → Fin s.rank)) (init : IVec S_ 1) (hr : s.ReducesTo axes S_)
    (hu : 0 < S_.numel) (j : S_.Idx)
    (e : Host.reduce IntOp.andi
        (cmpf .olt (Host.absf a) (broadcastInDim s ![] hb (constant (F := Ideal) S_ .f32 0x7F800000#32))) init hr hu j = 1#1)
    (i : s.Idx) : ∃ r : ℝ, a i = (r : EReal) :=
  real_of_abs_lt (a i) (Host.reduce_andi_all _ init hr hu j e i)

/-- The precondition holds: every entry of every float argument is a real number. -/
theorem real_of_pre (a0 : FVec Ideal S250000x3 .f32) (a1 : IVec S2x4000000 32)
    (a2 : FVec Ideal S3x16 .f32) (a3 : FVec Ideal S16 .f32)
    (a4 : FVec Ideal S16x7 .f32) (a5 : FVec Ideal S7 .f32)
    (h : Cert.Pre_finite_inputs.fn (F := Ideal) a0 a1 a2 a3 a4 a5 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1] at e
  obtain ⟨e4, e5⟩ := IntOp.andi_eq_one.1 e
  obtain ⟨e3, e4⟩ := IntOp.andi_eq_one.1 e4
  obtain ⟨e2, e3⟩ := IntOp.andi_eq_one.1 e3
  obtain ⟨e0, e2⟩ := IntOp.andi_eq_one.1 e2
  exact ⟨real_of_all a0 _ _ _ _ _ e0, real_of_all a2 _ _ _ _ _ e2, real_of_all a3 _ _ _ _ _ e3,
    real_of_all a4 _ _ _ _ _ e4, real_of_all a5 _ _ _ _ _ e5⟩

end Cert.FiniteInputs
-- ==== Proof.lean ====
/-
  A TWO-LAYER GRAPH CONVOLUTION, AGGREGATE-THEN-TRANSFORM AGAINST TRANSFORM-THEN-AGGREGATE.

  The graph has 250000 nodes and 4250000 edges (4000000 given, one self-loop per node appended). With `deg` the
  in-degree and `d = 1/√deg` (zero where the degree is not positive), one layer of the convolution maps node features
  `x` to      out[n] = ∑ over the edges e landing on n of  d[src e] · d[tgt e] · (x[src e] · W)  + b,
  and the network is two layers with a clip at zero between them.

  The reference computes it as written: transform every node's row by `W`, weigh each edge's gathered row by
  `d[src e] · d[tgt e]`, scatter-add. The kernel separates the weight: it scales the node array by `d` BEFORE the gather
  (so every edge reads an already scaled source row), scatter-adds, and scales by `d[n]` AFTER the sum — on every edge
  that lands on `n` the gathered target is `n` itself, so that factor is constant over the sum —; in the first layer it
  also aggregates the 3-wide raw features first and applies the 3 × 16 transform after the sum. The two agree over
  the reals, by distributivity and the exchange of two finite sums (GcnAlgebra); on the extended reals distributivity
  needs the inputs to be real numbers, which is what the precondition says (FiniteInputs), and the normalisation `d` is
  then real too (the degree is a finite count). The four pipelined regions of the kernel each leave one function of the
  arrays they find (SourceScale, HiddenLayer, Transform2, TargetScale); the host lines between them are the gathers
  and scatter-adds (Aggregate); read back through the program's segments (KernelBase, KernelValue) the kernel's result
  is the convolution in the kernel's order, and the reference's run read operation by operation (RefValue) is the
  convolution in the reference's order.
-/
import proofs.«178559_j463856468564_2_alg».proof.Defs
import proofs.«178559_j463856468564_2_alg».proof.Proof.Gen.Kernel
import proofs.«178559_j463856468564_2_alg».proof.Proof.Gen.Kernel.Frame
import proofs.«178559_j463856468564_2_alg».proof.Proof.Gen.KernelIdeal
import proofs.«178559_j463856468564_2_alg».proof.Proof.Gen.KernelIdeal.Frame
import proofs.«178559_j463856468564_2_alg».proof.Proof.Gen.ReferenceIdeal
import proofs.«178559_j463856468564_2_alg».proof.Proof.Gen.Pre_finite_inputs
import proofs.«178559_j463856468564_2_alg».proof.Proof.RefRunP
import proofs.«178559_j463856468564_2_alg».proof.Proof.RefReadP
import proofs.«178559_j463856468564_2_alg».proof.Proof.RefValue
import proofs.«178559_j463856468564_2_alg».proof.Proof.KernelRun
import proofs.«178559_j463856468564_2_alg».proof.Proof.KernelValue
import proofs.«178559_j463856468564_2_alg».proof.Proof.FiniteInputs
import proofs.«178559_j463856468564_2_alg».proof.Proof.GcnAlgebra
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs spell the edge lists and the normalisation with the same operations of the edge-index argument. -/
theorem row_eq (ei : IVec Cert.KernelIdeal.S2x4000000 32) :
    Cert.KernelIdeal.Base.rowK ei = Cert.ReferenceIdeal.ReadP.val_main_v3 (F := Ideal) ei := rfl
theorem col_eq (ei : IVec Cert.KernelIdeal.S2x4000000 32) :
    Cert.KernelIdeal.Base.colK ei = Cert.ReferenceIdeal.ReadP.val_main_v6 (F := Ideal) ei := rfl
theorem dis_eq (ei : IVec Cert.KernelIdeal.S2x4000000 32) :
    Cert.KernelIdeal.Base.disK ei = Cert.ReferenceIdeal.ReadP.val_main_v15 (F := Ideal) ei := rfl

/-- THE TWO RESULTS ARE ONE ARRAY: from memories that agree on the arguments, all of them real numbers, the reference's
    result term is what the kernel's last segment boundary holds in the result buffer. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v65 m' c
      = Cert.KernelIdeal.Gen.W9 m ρ c (Proc.devRef .tc Cert.KernelIdeal.main_v42) := by
  obtain ⟨r0, r2, r3, r4, r5⟩ := Cert.FiniteInputs.real_of_pre _ _ _ _ _ _ hpre
  rw [Cert.ReferenceIdeal.ReadP.val_main_v65_eq, h0, h1, h2, h3, h4, h5]
  funext i
  obtain ⟨n, q, rfl⟩ : ∃ (n : Fin 250000) (q : Fin 7), i = ix2 n q := ⟨i 0, i 1, eq_ix2 i⟩
  refine (Cert.ReferenceIdeal.RefValue.ref_out _ _ _ _ _ _ n q).trans ?_
  refine Eq.trans ?_ (Cert.KernelIdeal.Chain.kernel_out m ρ c n q).symm
  have hd : ∀ k : Fin 250000, Cert.KernelIdeal.Base.dis2K (Cert.KernelIdeal.Chain.ei m c) (ix2 k (0 : Fin 1))
      = Cert.ReferenceIdeal.ReadP.val_main_v15 (F := Ideal) (Cert.KernelIdeal.Chain.ei m c) (ix1 k) := fun k => by
    unfold Cert.KernelIdeal.Base.dis2K
    exact (Cert.Aggregate.broadcast_col_apply _ _ k).trans (congrFun (dis_eq _) (ix1 k))
  simp only [hd, row_eq, col_eq]
  exact (Cert.Gcn.outK_eq_outR _ _ _ (fun e k h => Cert.Graph.tgt_of_land _ e k h) _ _ _ _ _ _
    (fun k => Cert.ReferenceIdeal.RefValue.dis_real _ k) (fun k j => r0 (ix2 k j)) (fun k j => r2 (ix2 k j))
    (fun j => r3 (ix1 j)) (fun j p => r4 (ix2 j p)) (fun p => r5 (ix1 p)) n q).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the kernel's own text read at the ideal instance. -/
theorem preserves : Cert.preserves_Kernel_KernelIdeal := trivial

/-- Both idealized programs run; the kernel ends with its result buffer at the last boundary's contents, the reference
    with its result at its operations' composed term, and the two are one array (`result_eq`). -/
theorem algebraic : Cert.algebraic_KernelIdeal_ReferenceIdeal := by
  intro m ρ m' ρ' hpre hagree
  refine ⟨fun c => Cert.KernelIdeal.Gen.W9 m ρ c (Proc.devRef .tc Cert.KernelIdeal.main_v42),
    Cert.KernelIdeal.Run.run_out (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact result_eq m ρ m' c (hpre c) h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
